-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S4000000 : Shape := ⟨1, ![4000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4000000 : S_.BroadcastsInDim S4000000 (![] : Fin 0 → Fin S4000000.rank)
  reducesTo_S4000000_S_d0 : S4000000.ReducesTo [0] S_

variable [Facts]

def fn_part4 {F : FTy → Type} [FloatOps F] (main_arg14 : IVec S4000000 32) (main_arg15 : IVec S4000000 32) (main_v63 : IVec S_ 1) (main_v67 : IVec S_ 1) : IVec S_ 1 :=
  let main_v68 : IVec S_ 1 := andi main_v63 main_v67
  let main_c_26 : IVec S_ 32 := constantI S_ 32 0#32
  let main_v69 : IVec S4000000 32 := broadcastInDim S4000000 ![] bcast_S_S4000000 main_c_26
  let main_v70 : IVec S4000000 1 := cmpi .sge main_arg14 main_v69
  let main_c_27 : IVec S_ 1 := constantI S_ 1 1#1
  let main_v71 : IVec S_ 1 := (fun x v => Host.reduce IntOp.andi x v reducesTo_S4000000_S_d0 h_S_) main_v70 main_c_27
  let main_v72 : IVec S_ 1 := andi main_v68 main_v71
  let main_c_28 : IVec S_ 32 := constantI S_ 32 0#32
  let main_v73 : IVec S4000000 32 := broadcastInDim S4000000 ![] bcast_S_S4000000 main_c_28
  let main_v74 : IVec S4000000 1 := cmpi .sge main_arg15 main_v73
  let main_c_29 : IVec S_ 1 := constantI S_ 1 1#1
  let main_v75 : IVec S_ 1 := (fun x v => Host.reduce IntOp.andi x v reducesTo_S4000000_S_d0 h_S_) main_v74 main_c_29
  let main_v76 : IVec S_ 1 := andi main_v72 main_v75
  main_v76

def fn_part3 {F : FTy → Type} [FloatOps F] (main_arg11 : FVec F S64x64 .f32) (main_arg12 : FVec F S64x64 .f32) (main_arg13 : FVec F S64 .f32) (main_arg14 : IVec S4000000 32) (main_arg15 : IVec S4000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : IVec S4000000 32) (main_arg15 : IVec S4000000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : IVec S4000000 32) (main_arg15 : IVec S4000000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S200000x64 .f32) (main_arg1 : FVec F S100000x64 .f32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : IVec S4000000 32) (main_arg15 : IVec S4000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S4000000 : Shape := ⟨1, ![4000000]⟩
abbrev S_ : Shape := ⟨0, ![]⟩
abbrev S100000 : Shape := ⟨1, ![100000]⟩
abbrev S4000000x1 : Shape := ⟨2, ![4000000, 1]⟩
abbrev S100000x1 : Shape := ⟨2, ![100000, 1]⟩
abbrev S200000 : Shape := ⟨1, ![200000]⟩
abbrev S200000x1 : Shape := ⟨2, ![200000, 1]⟩
abbrev S4000000x64 : Shape := ⟨2, ![4000000, 64]⟩
abbrev S1x64 : Shape := ⟨2, ![1, 64]⟩
abbrev S4000x64 : Shape := ⟨2, ![4000, 64]⟩
abbrev S4000x1 : Shape := ⟨2, ![4000, 1]⟩
abbrev S300000x64 : Shape := ⟨2, ![300000, 64]⟩

abbrev nBuf : Space → Nat
  | .hbm => 143
  | .vmem => 44
  | .smem => 0
  | _ => 0

abbrev hbmTy0_0 (i : Nat) : BufTy := match i % 128 with
  | 0 => ⟨S200000x64, .f32⟩
  | 1 => ⟨S100000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S4000000, .i32⟩
  | 15 => ⟨S4000000, .i32⟩
  | 16 => ⟨S_, .i32⟩
  | 17 => ⟨S4000000, .i32⟩
  | 18 => ⟨S_, .i32⟩
  | 19 => ⟨S100000, .i32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S4000000x1, .i32⟩
  | 28 => ⟨S100000, .i32⟩
  | 29 => ⟨S100000, .f32⟩
  | 30 => ⟨S100000x1, .f32⟩
  | 31 => ⟨S_, .i32⟩
  | 32 => ⟨S4000000, .i32⟩
  | 33 => ⟨S_, .i32⟩
  | 34 => ⟨S200000, .i32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S200000, .i32⟩
  | 44 => ⟨S200000, .f32⟩
  | 45 => ⟨S200000x1, .f32⟩
  | 46 => ⟨S200000x64, .bf16⟩
  | 47 => ⟨S_, .i32⟩
  | 48 => ⟨S4000000, .i32⟩
  | 49 => ⟨S4000000, .i1⟩
  | 50 => ⟨S_, .i32⟩
  | 51 => ⟨S4000000, .i32⟩
  | 52 => ⟨S4000000, .i32⟩
  | 53 => ⟨S4000000, .i32⟩
  | 54 => ⟨S4000000x1, .i32⟩
  | 55 => ⟨S4000000x64, .bf16⟩
  | 56 => ⟨S4000000x64, .f32⟩
  | 57 => ⟨S_, .f32⟩
  | 58 => ⟨S100000x64, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S100000x64, .f32⟩
  | 68 => ⟨S1x64, .f32⟩
  | 69 => ⟨S100000x64, .f32⟩
  | 70 => ⟨S100000x64, .bf16⟩
  | 71 => ⟨S_, .i32⟩
  | 72 => ⟨S4000000, .i32⟩
  | 73 => ⟨S4000000, .i1⟩
  | 74 => ⟨S_, .i32⟩
  | 75 => ⟨S4000000, .i32⟩
  | 76 => ⟨S4000000, .i32⟩
  | 77 => ⟨S4000000, .i32⟩
  | 78 => ⟨S4000000x1, .i32⟩
  | 79 => ⟨S4000000x64, .bf16⟩
  | 80 => ⟨S4000000x64, .f32⟩
  | 81 => ⟨S_, .f32⟩
  | 82 => ⟨S200000x64, .f32⟩
  | 83 => ⟨S_, .i32⟩
  | 84 => ⟨S4000000, .i32⟩
  | 85 => ⟨S4000000, .i1⟩
  | 86 => ⟨S_, .i32⟩
  | 87 => ⟨S4000000, .i32⟩
  | 88 => ⟨S4000000, .i32⟩
  | 89 => ⟨S4000000, .i32⟩
  | 90 => ⟨S4000000x1, .i32⟩
  | 91 => ⟨S200000x64, .f32⟩
  | 92 => ⟨S1x64, .f32⟩
  | 93 => ⟨S200000x64, .f32⟩
  | 94 => ⟨S200000x64, .bf16⟩
  | 95 => ⟨S_, .i32⟩
  | 96 => ⟨S4000000, .i32⟩
  | 97 => ⟨S4000000, .i1⟩
  | 98 => ⟨S_, .i32⟩
  | 99 => ⟨S4000000, .i32⟩
  | 100 => ⟨S4000000, .i32⟩
  | 101 => ⟨S4000000, .i32⟩
  | 102 => ⟨S4000000x1, .i32⟩
  | 103 => ⟨S4000000x64, .bf16⟩
  | 104 => ⟨S4000000x64, .f32⟩
  | 105 => ⟨S_, .f32⟩
  | 106 => ⟨S100000x64, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S4000000x1, .i32⟩
  | 115 => ⟨S100000x64, .f32⟩
  | 116 => ⟨S1x64, .f32⟩
  | 117 => ⟨S100000x64, .f32⟩
  | 118 => ⟨S100000x64, .bf16⟩
  | 119 => ⟨S_, .i32⟩
  | 120 => ⟨S4000000, .i32⟩
  | 121 => ⟨S4000000, .i1⟩
  | 122 => ⟨S_, .i32⟩
  | 123 => ⟨S4000000, .i32⟩
  | 124 => ⟨S4000000, .i32⟩
  | 125 => ⟨S4000000, .i32⟩
  | 126 => ⟨S4000000x1, .i32⟩
  | 127 => ⟨S4000000x64, .bf16⟩
  | _ => ⟨S200000x64, .f32⟩

abbrev hbmTy0_1 (i : Nat) : BufTy := match i % 128 with
  | 0 => ⟨S4000000x64, .f32⟩
  | 1 => ⟨S_, .f32⟩
  | 2 => ⟨S200000x64, .f32⟩
  | 3 => ⟨S_, .i32⟩
  | 4 => ⟨S4000000, .i32⟩
  | 5 => ⟨S4000000, .i1⟩
  | 6 => ⟨S_, .i32⟩
  | 7 => ⟨S4000000, .i32⟩
  | 8 => ⟨S4000000, .i32⟩
  | 9 => ⟨S4000000, .i32⟩
  | 10 => ⟨S4000000x1, .i32⟩
  | 11 => ⟨S200000x64, .f32⟩
  | 12 => ⟨S1x64, .f32⟩
  | 13 => ⟨S200000x64, .f32⟩
  | 14 => ⟨S300000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x1, .f32⟩
  | .local _ .vmem, ⟨36, _⟩ => ⟨S4000x1, .f32⟩
  | .local _ .vmem, ⟨37, _⟩ => ⟨S4000x64, .f32⟩
  | .local _ .vmem, ⟨38, _⟩ => ⟨S4000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S4000x64, .f32⟩
  | .local _ .vmem, ⟨43, _⟩ => ⟨S4000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_c_0 : Ref sig .tc := ⟨.hbm, 18, rfl⟩
abbrev main_v1 : Ref sig .tc := ⟨.hbm, 19, rfl⟩
abbrev main_c_1 : Ref sig .tc := ⟨.hbm, 20, rfl⟩
abbrev main_v2 : Ref sig .tc := ⟨.hbm, 21, rfl⟩
abbrev main_v3 : Ref sig .tc := ⟨.hbm, 22, rfl⟩
abbrev main_c_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_c_4 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_7 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_v33 : Ref sig .tc := ⟨.hbm, 61, rfl⟩
abbrev main_c_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_c_22 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_23 : Ref sig .tc := ⟨.hbm, 129, rfl⟩
abbrev main_v88 : Ref sig .tc := ⟨.hbm, 130, rfl⟩
abbrev main_c_24 : Ref sig .tc := ⟨.hbm, 131, rfl⟩
abbrev main_v89 : Ref sig .tc := ⟨.hbm, 132, rfl⟩
abbrev main_v90 : Ref sig .tc := ⟨.hbm, 133, rfl⟩
abbrev main_c_25 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S4000000 : S_.BroadcastsInDim S4000000 (![] : Fin 0 → Fin S4000000.rank)
  bcast_S_S100000 : S_.BroadcastsInDim S100000 (![] : Fin 0 → Fin S100000.rank)
  bcast_S4000000_S4000000x1_0 : S4000000.BroadcastsInDim S4000000x1 (![0] : Fin 1 → Fin S4000000x1.rank)
  shapeCasts_S100000_S100000x1 : S100000.ShapeCasts S100000x1
  bcast_S_S200000 : S_.BroadcastsInDim S200000 (![] : Fin 0 → Fin S200000.rank)
  shapeCasts_S200000_S200000x1 : S200000.ShapeCasts S200000x1
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S200000x64 : S_.BroadcastsInDim S200000x64 (![] : Fin 0 → Fin S200000x64.rank)
  concatenates_S200000x64_S100000x64_S300000x64_d0 : Shape.Concatenates [S200000x64, S100000x64] S300000x64 0
  scatter_S100000_S4000000x1_S4000000_n_0_0_1_wf : ScatterDims.WF S100000 S4000000x1 S4000000 [] [0] [0] 1
  scatter_S200000_S4000000x1_S4000000_n_0_0_1_wf : ScatterDims.WF S200000 S4000000x1 S4000000 [] [0] [0] 1
  gather_S200000x64_S4000000x1_S4000000x64_1_0_n_n_0_1_164_wf : GatherDims.WF S200000x64 S4000000x1 S4000000x64 [1] [0] [] [0] [] 1 ![1, 64]
  scatter_S100000x64_S4000000x1_S4000000x64_1_0_0_1_wf : ScatterDims.WF S100000x64 S4000000x1 S4000000x64 [1] [0] [0] 1
  dot_S4000x64_S64x64_S4000x64_1_0_0_1_n_n_wf : DotDims.WF S4000x64 S64x64 S4000x64 [1] [0] [0] [1] [] []
  gather_S100000x64_S4000000x1_S4000000x64_1_0_n_n_0_1_164_wf : GatherDims.WF S100000x64 S4000000x1 S4000000x64 [1] [0] [] [0] [] 1 ![1, 64]
  scatter_S200000x64_S4000000x1_S4000000x64_1_0_0_1_wf : ScatterDims.WF S200000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S200000x64.size a
  hwx1_2 : ∀ i : grid1.Coords, EltTy.bits .f32 = 32 ∨ (Rect.block (s := S200000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S200000x64.size a
  hwx1_6 : ∀ i : grid1.Coords, EltTy.bits .f32 = 32 ∨ (Rect.block (s := S200000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S200000x64.size a
  hwx3_2 : ∀ i : grid3.Coords, EltTy.bits .f32 = 32 ∨ (Rect.block (s := S200000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S200000x64.size a
  hwx3_6 : ∀ i : grid3.Coords, EltTy.bits .f32 = 32 ∨ (Rect.block (s := S200000x64) S4000x64.size (cc3_transform_6 i) (hinb3_6 i)).WholeWords (EltTy.packing .f32)

variable [Facts₀]

def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S100000x64_S4000000x1_S4000000x64_1_0_0_1 : ScatterDims S100000x64 S4000000x1 S4000000x64 where
  updateWindowDims := [1]
  insertedWindowDims := [0]
  scatterDimsToOperandDims := [0]
  indexVectorDim := 1
  wf := scatter_S100000x64_S4000000x1_S4000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S4000000x1_S4000000x64_1_0_n_n_0_1_164 : GatherDims S100000x64 S4000000x1 S4000000x64 where
  offsetDims := [1]
  collapsedSliceDims := [0]
  operandBatchingDims := []
  startIndicesBatchingDims := []
  startIndexMap := [0]
  indexVectorDim := 1
  sliceSizes := ![1, 64]
  wf := gather_S100000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf

abbrev win0_0 : Pipeline.Window sig grid0 :=
  Pipeline.Window.ofSpec (Memref.whole main_v38) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v57) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v76) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v95) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S4000000 : Shape := ⟨1, ![4000000]⟩
abbrev S_ : Shape := ⟨0, ![]⟩
abbrev S4000000x1 : Shape := ⟨2, ![4000000, 1]⟩
abbrev S4000000x64 : Shape := ⟨2, ![4000000, 64]⟩
abbrev S100000x1 : Shape := ⟨2, ![100000, 1]⟩
abbrev S1x64 : Shape := ⟨2, ![1, 64]⟩
abbrev S200000x1 : Shape := ⟨2, ![200000, 1]⟩
abbrev S300000x64 : Shape := ⟨2, ![300000, 64]⟩

abbrev nBuf : Space → Nat
  | .hbm => 143
  | .vmem => 0
  | .smem => 0
  | _ => 0

abbrev hbmTy0_0 (i : Nat) : BufTy := match i % 128 with
  | 0 => ⟨S200000x64, .f32⟩
  | 1 => ⟨S100000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S4000000, .i32⟩
  | 15 => ⟨S4000000, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S4000000x64, .f32⟩
  | 25 => ⟨S_, .f32⟩
  | 26 => ⟨S100000x64, .f32⟩
  | 27 => ⟨S4000000x1, .i32⟩
  | 28 => ⟨S100000x64, .f32⟩
  | 29 => ⟨S_, .f32⟩
  | 30 => ⟨S4000000x1, .f32⟩
  | 31 => ⟨S_, .f32⟩
  | 32 => ⟨S100000x1, .f32⟩
  | 33 => ⟨S4000000x1, .i32⟩
  | 34 => ⟨S100000x1, .f32⟩
  | 35 => ⟨S_, .f32⟩
  | 36 => ⟨S100000x1, .f32⟩
  | 37 => ⟨S100000x1, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000x64, .f32⟩
  | 58 => ⟨S_, .f32⟩
  | 59 => ⟨S200000x64, .f32⟩
  | 60 => ⟨S4000000x1, .i32⟩
  | 61 => ⟨S200000x64, .f32⟩
  | 62 => ⟨S_, .f32⟩
  | 63 => ⟨S4000000x1, .f32⟩
  | 64 => ⟨S_, .f32⟩
  | 65 => ⟨S200000x1, .f32⟩
  | 66 => ⟨S4000000x1, .i32⟩
  | 67 => ⟨S200000x1, .f32⟩
  | 68 => ⟨S_, .f32⟩
  | 69 => ⟨S200000x1, .f32⟩
  | 70 => ⟨S200000x1, .f32⟩
  | 71 => ⟨S200000x64, .f32⟩
  | 72 => ⟨S200000x64, .f32⟩
  | 73 => ⟨S200000x64, .f32⟩
  | 74 => ⟨S1x64, .f32⟩
  | 75 => ⟨S200000x64, .f32⟩
  | 76 => ⟨S200000x64, .f32⟩
  | 77 => ⟨S200000x64, .f32⟩
  | 78 => ⟨S200000x64, .f32⟩
  | 79 => ⟨S_, .f32⟩
  | 80 => ⟨S200000x64, .f32⟩
  | 81 => ⟨S200000x64, .f32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000x64, .f32⟩
  | 91 => ⟨S_, .f32⟩
  | 92 => ⟨S100000x64, .f32⟩
  | 93 => ⟨S4000000x1, .i32⟩
  | 94 => ⟨S100000x64, .f32⟩
  | 95 => ⟨S_, .f32⟩
  | 96 => ⟨S4000000x1, .f32⟩
  | 97 => ⟨S_, .f32⟩
  | 98 => ⟨S100000x1, .f32⟩
  | 99 => ⟨S4000000x1, .i32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S100000x64, .f32⟩
  | 111 => ⟨S100000x64, .f32⟩
  | 112 => ⟨S_, .i32⟩
  | 113 => ⟨S4000000, .i32⟩
  | 114 => ⟨S4000000, .i1⟩
  | 115 => ⟨S_, .i32⟩
  | 116 => ⟨S4000000, .i32⟩
  | 117 => ⟨S4000000, .i32⟩
  | 118 => ⟨S4000000, .i32⟩
  | 119 => ⟨S4000000x1, .i32⟩
  | 120 => ⟨S4000000x64, .f32⟩
  | 121 => ⟨S_, .f32⟩
  | 122 => ⟨S200000x64, .f32⟩
  | 123 => ⟨S4000000x1, .i32⟩
  | 124 => ⟨S200000x64, .f32⟩
  | 125 => ⟨S_, .f32⟩
  | 126 => ⟨S4000000x1, .f32⟩
  | 127 => ⟨S_, .f32⟩
  | _ => ⟨S200000x64, .f32⟩

abbrev hbmTy0_1 (i : Nat) : BufTy := match i % 128 with
  | 0 => ⟨S200000x1, .f32⟩
  | 1 => ⟨S4000000x1, .i32⟩
  | 2 => ⟨S200000x1, .f32⟩
  | 3 => ⟨S_, .f32⟩
  | 4 => ⟨S200000x1, .f32⟩
  | 5 => ⟨S200000x1, .f32⟩
  | 6 => ⟨S200000x64, .f32⟩
  | 7 => ⟨S200000x64, .f32⟩
  | 8 => ⟨S200000x64, .f32⟩
  | 9 => ⟨S1x64, .f32⟩
  | 10 => ⟨S200000x64, .f32⟩
  | 11 => ⟨S200000x64, .f32⟩
  | 12 => ⟨S200000x64, .f32⟩
  | 13 => ⟨S200000x64, .f32⟩
  | 14 => ⟨S300000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_c_17 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_cst_20 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_21 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000x64 : S_.BroadcastsInDim S100000x64 (![] : Fin 0 → Fin S100000x64.rank)
  bcast_S_S4000000x1 : S_.BroadcastsInDim S4000000x1 (![] : Fin 0 → Fin S4000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  concatenates_S200000x64_S100000x64_S300000x64_d0 : Shape.Concatenates [S200000x64, S100000x64] S300000x64 0
  gather_S200000x64_S4000000x1_S4000000x64_1_0_n_n_0_1_164_wf : GatherDims.WF S200000x64 S4000000x1 S4000000x64 [1] [0] [] [0] [] 1 ![1, 64]
  scatter_S100000x64_S4000000x1_S4000000x64_1_0_0_1_wf : ScatterDims.WF S100000x64 S4000000x1 S4000000x64 [1] [0] [0] 1
  scatter_S100000x1_S4000000x1_S4000000x1_1_0_0_1_wf : ScatterDims.WF S100000x1 S4000000x1 S4000000x1 [1] [0] [0] 1
  dot_S100000x64_S64x64_S100000x64_1_0_0_1_n_n_wf : DotDims.WF S100000x64 S64x64 S100000x64 [1] [0] [0] [1] [] []
  gather_S100000x64_S4000000x1_S4000000x64_1_0_n_n_0_1_164_wf : GatherDims.WF S100000x64 S4000000x1 S4000000x64 [1] [0] [] [0] [] 1 ![1, 64]
  scatter_S200000x64_S4000000x1_S4000000x64_1_0_0_1_wf : ScatterDims.WF S200000x64 S4000000x1 S4000000x64 [1] [0] [0] 1
  scatter_S200000x1_S4000000x1_S4000000x1_1_0_0_1_wf : ScatterDims.WF S200000x1 S4000000x1 S4000000x1 [1] [0] [0] 1
  dot_S200000x64_S64x64_S200000x64_1_0_0_1_n_n_wf : DotDims.WF S200000x64 S64x64 S200000x64 [1] [0] [0] [1] [] []

variable [Facts₀]

def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S100000x64_S4000000x1_S4000000x64_1_0_0_1 : ScatterDims S100000x64 S4000000x1 S4000000x64 where
  updateWindowDims := [1]
  insertedWindowDims := [0]
  scatterDimsToOperandDims := [0]
  indexVectorDim := 1
  wf := scatter_S100000x64_S4000000x1_S4000000x64_1_0_0_1_wf
def scatter_S100000x1_S4000000x1_S4000000x1_1_0_0_1 : ScatterDims S100000x1 S4000000x1 S4000000x1 where
  updateWindowDims := [1]
  insertedWindowDims := [0]
  scatterDimsToOperandDims := [0]
  indexVectorDim := 1
  wf := scatter_S100000x1_S4000000x1_S4000000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S4000000x1_S4000000x64_1_0_n_n_0_1_164 : GatherDims S100000x64 S4000000x1 S4000000x64 where
  offsetDims := [1]
  collapsedSliceDims := [0]
  operandBatchingDims := []
  startIndicesBatchingDims := []
  startIndexMap := [0]
  indexVectorDim := 1
  sliceSizes := ![1, 64]
  wf := gather_S100000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf
def scatter_S200000x1_S4000000x1_S4000000x1_1_0_0_1 : ScatterDims S200000x1 S4000000x1 S4000000x1 where
  updateWindowDims := [1]
  insertedWindowDims := [0]
  scatterDimsToOperandDims := [0]
  indexVectorDim := 1
  wf := scatter_S200000x1_S4000000x1_S4000000x1_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.KernelRun.lean ====
/-
  The idealized kernel program's run, with its result named.

  The program is nine segments: five stretches of host operations and four tiled regions between them.  The
  contents of every buffer at each boundary are a fold from the launch memory: a stretch applies its operations,
  a region replaces its arrays by what its write-backs leave.  The last boundary's contents `W9` therefore name
  what the result buffer holds when the program returns, and each argument buffer is read back through the fold
  to its launch contents.  Every weakly fair execution terminates without a fault in a state whose unscoped
  buffers are at `W9`; this module reads that state at the result buffer and at the sixteen arguments.
-/
import proofs.«116008_j56092272886142_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument buffer as launched. -/
theorem run_result : θ_run defs (onTc (τ := τ) (main (F := F))) ⟨m, fun _ => 0, ρ⟩ (fun r => ∀ c : Dev nD,
      r.2.mem ((c.tc : Thread nD τ).loc main_v98) = W9 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v98 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.Result

end
-- ==== Proof.PreIdx.lean ====
/-
  The certificate's precondition ends in two whole-array tests, "every user index is at least zero" and "every
  movie index is at least zero", each printed as an i1 array (a signed comparison against the zero word) reduced by
  "and" from the constant one, and the claim states that the conjunction of all tests is the one word.  This
  module reads the two tests back: every word of either index array is nonnegative when read as a signed integer.

  It then records what nonnegativity buys downstream.  Both programs normalise a gather/scatter index by the
  usual wrap "if x < 0 then x + N else x".  On an array whose every word is nonnegative the comparison is never
  true, so the wrap returns the array unchanged, whatever the extent N.
-/
import proofs.«116008_j56092272886142_2_alg».proof.Defs
import proofs.«116008_j56092272886142_2_alg».proof.Proof.Gen.Pre_finite_inputs
import proofs.«116008_j56092272886142_2_alg».proof.Proof.Gen.KernelIdeal
import proofs.«116008_j56092272886142_2_alg».proof.Proof.Gen.ReferenceIdeal
import Idealize.ShloMosaic.Lib.ReduceAll
import Idealize.ShloMosaic.Lib.ValueIdx

noncomputable section

namespace Cert.PreIdx

open Idealize.ShloMosaic Idealize.SL.Sem

/-- The scalar shape has exactly one index. -/
instance subsingleton_scalar_idx : Subsingleton Cert.Pre_finite_inputs.S_.Idx :=
  ⟨fun a b => funext fun d => d.elim0⟩

/-- The zero word read signed is the integer zero. -/
theorem toInt_zero32 : (0#32 : BitVec 32).toInt = 0 := by decide

section Pre
open Cert.Pre_finite_inputs Cert.Pre_finite_inputs.Facts
variable [Cert.Pre_finite_inputs.Facts]

/-- One whole-array test read back: if the "and" over the array of comparisons "x ≥ 0" is one, every word of x is
    nonnegative. -/
theorem all_sge_zero (x : IVec S4000000 32) (init : IVec S_ 1)
    (h : Host.reduce IntOp.andi (cmpi .sge x (broadcastInDim S4000000 ![] bcast_S_S4000000 (constantI S_ 32 0#32))) init
          reducesTo_S4000000_S_d0 h_S_ ValueIdx.ix0 = 1#1) (e : S4000000.Idx) : 0 ≤ (x e).toInt := by
  have he := Host.reduce_andi_all _ _ _ _ _ h e
  have hle : (0#32 : BitVec 32).toInt ≤ (x e).toInt := IntOp.cmpi_sge.1 he
  rwa [toInt_zero32] at hle

/-- The last part of the precondition (the two index tests and the final conjunctions): if its one word is one,
    both index arrays are nonnegative everywhere.  The two incoming words carry the float tests and are not looked at. -/
theorem part4_nonneg {F : FTy → Type} [FloatOps F] (a14 a15 : IVec S4000000 32) (v63 v67 : IVec S_ 1)
    (h : fn_part4 (F := F) a14 a15 v63 v67 ValueIdx.ix0 = 1#1) :
    (∀ e : S4000000.Idx, 0 ≤ (a14 e).toInt) ∧ (∀ e : S4000000.Idx, 0 ≤ (a15 e).toInt) := by
  have h' : IntOp.andi (IntOp.andi (IntOp.andi (v63 ValueIdx.ix0) (v67 ValueIdx.ix0))
        (Host.reduce IntOp.andi (cmpi .sge a14 (broadcastInDim S4000000 ![] bcast_S_S4000000 (constantI S_ 32 0#32))) (constantI S_ 1 1#1)
          reducesTo_S4000000_S_d0 h_S_ ValueIdx.ix0))
        (Host.reduce IntOp.andi (cmpi .sge a15 (broadcastInDim S4000000 ![] bcast_S_S4000000 (constantI S_ 32 0#32))) (constantI S_ 1 1#1)
          reducesTo_S4000000_S_d0 h_S_ ValueIdx.ix0) = 1#1 := h
  obtain ⟨h1, h15⟩ := IntOp.andi_eq_one.1 h'
  obtain ⟨-, h14⟩ := IntOp.andi_eq_one.1 h1
  exact ⟨all_sge_zero a14 _ h14, all_sge_zero a15 _ h15⟩

/-- THE PRECONDITION READ BACK, at any float instance: if the precondition's one word is one, every user index and
    every movie index is nonnegative.  The whole chain of float tests is carried along unopened: the function is its
    last part applied to two words that summarise them. -/
theorem idx_nonneg {F : FTy → Type} [FloatOps F]
    (a0 : FVec F S200000x64 .f32) (a1 : FVec F S100000x64 .f32) (a2 a3 : FVec F S64x64 .f32) (a4 : FVec F S64 .f32)
    (a5 a6 : FVec F S64x64 .f32) (a7 : FVec F S64 .f32) (a8 a9 : FVec F S64x64 .f32) (a10 : FVec F S64 .f32)
    (a11 a12 : FVec F S64x64 .f32) (a13 : FVec F S64 .f32) (a14 a15 : IVec S4000000 32)
    (h : fn (F := F) a0 a1 a2 a3 a4 a5 a6 a7 a8 a9 a10 a11 a12 a13 a14 a15 = fun _ => 1#1) :
    (∀ e : S4000000.Idx, 0 ≤ (a14 e).toInt) ∧ (∀ e : S4000000.Idx, 0 ≤ (a15 e).toInt) := by
  have h0 := congrFun h ValueIdx.ix0
  dsimp only [fn, fn_part1, fn_part2, fn_part3] at h0
  exact part4_nonneg (F := F) a14 a15 _ _ h0

/-- The same, with the index arrays read at a coordinate. -/
theorem idx_nonneg_fin {F : FTy → Type} [FloatOps F]
    (a0 : FVec F S200000x64 .f32) (a1 : FVec F S100000x64 .f32) (a2 a3 : FVec F S64x64 .f32) (a4 : FVec F S64 .f32)
    (a5 a6 : FVec F S64x64 .f32) (a7 : FVec F S64 .f32) (a8 a9 : FVec F S64x64 .f32) (a10 : FVec F S64 .f32)
    (a11 a12 : FVec F S64x64 .f32) (a13 : FVec F S64 .f32) (a14 a15 : IVec S4000000 32)
    (h : fn (F := F) a0 a1 a2 a3 a4 a5 a6 a7 a8 a9 a10 a11 a12 a13 a14 a15 = fun _ => 1#1) :
    (∀ e : Fin 4000000, 0 ≤ (a14 (ValueIdx.ix1 e)).toInt) ∧ (∀ e : Fin 4000000, 0 ≤ (a15 (ValueIdx.ix1 e)).toInt) :=
  have hh := idx_nonneg a0 a1 a2 a3 a4 a5 a6 a7 a8 a9 a10 a11 a12 a13 a14 a15 h
  ⟨fun e => hh.1 _, fun e => hh.2 _⟩

end Pre

section Programs
variable [Cert.Pre_finite_inputs.Facts]

/-- The kernel's precondition gives nonnegative index arrays on every device. -/
theorem pre_idx_KernelIdeal
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e, 0 ≤ (m ((c.tc : Thread Cert.KernelIdeal.nD Cert.KernelIdeal.τ).loc Cert.KernelIdeal.main_arg14) e).toInt)
    ∧ (∀ e, 0 ≤ (m ((c.tc : Thread Cert.KernelIdeal.nD Cert.KernelIdeal.τ).loc Cert.KernelIdeal.main_arg15) e).toInt) :=
  idx_nonneg (F := Ideal) _ _ _ _ _ _ _ _ _ _ _ _ _ _ _ _ (hpre c)

/-- The reference's precondition gives nonnegative index arrays on every device. -/
theorem pre_idx_ReferenceIdeal
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    (∀ e, 0 ≤ (m ((c.tc : Thread Cert.ReferenceIdeal.nD Cert.ReferenceIdeal.τ).loc Cert.ReferenceIdeal.main_arg14) e).toInt)
    ∧ (∀ e, 0 ≤ (m ((c.tc : Thread Cert.ReferenceIdeal.nD Cert.ReferenceIdeal.τ).loc Cert.ReferenceIdeal.main_arg15) e).toInt) :=
  idx_nonneg (F := Ideal) _ _ _ _ _ _ _ _ _ _ _ _ _ _ _ _ (hpre c)

end Programs

/-! ## The negative-index wrap on a nonnegative array -/

/-- A nonnegative word does not test "less than zero". -/
theorem slt_zero_ne_one {v : BitVec 32} (hv : 0 ≤ v.toInt) : ¬ IntOp.cmpi .slt v 0#32 = 1#1 := by
  rw [IntOp.cmpi_slt, toInt_zero32]
  omega

/-- The wrap "if x < 0 then x + N else x" over any one-axis shape, with the zero and the extent broadcast from
    scalars: the identity on an array of nonnegative words.  The two broadcast side conditions are arbitrary proofs. -/
theorem wrap_id_gen {n : Nat} (h0 hN : (⟨0, ![]⟩ : Shape).BroadcastsInDim ⟨1, ![n]⟩ (![] : Fin 0 → Fin 1))
    (N : BitVec 32) (x : IVec ⟨1, ![n]⟩ 32) (hx : ∀ e, 0 ≤ (x e).toInt) :
    select (cmpi .slt x (broadcastInDim ⟨1, ![n]⟩ ![] h0 (constantI ⟨0, ![]⟩ 32 0#32)))
      (addi x (broadcastInDim ⟨1, ![n]⟩ ![] hN (constantI ⟨0, ![]⟩ 32 N))) x = x := by
  funext e
  show Scalar.select (IntOp.cmpi .slt (x e) 0#32) _ (x e) = x e
  exact if_neg (slt_zero_ne_one (hx e))

section Kernel
open Cert.KernelIdeal Cert.KernelIdeal.Facts₀
variable [Cert.KernelIdeal.Facts₀]

/-- The wrap in the kernel program's spelling (compare LT against broadcast zero, add broadcast extent, select). -/
theorem wrap_id (N : BitVec 32) (x : IVec Cert.KernelIdeal.S4000000 32) (hx : ∀ e, 0 ≤ (x e).toInt) :
    select (cmpi .slt x (broadcastInDim Cert.KernelIdeal.S4000000 ![] Cert.KernelIdeal.Facts₀.bcast_S_S4000000 (constantI Cert.KernelIdeal.S_ 32 0#32)))
      (addi x (broadcastInDim Cert.KernelIdeal.S4000000 ![] Cert.KernelIdeal.Facts₀.bcast_S_S4000000 (constantI Cert.KernelIdeal.S_ 32 N))) x = x :=
  wrap_id_gen _ _ N x hx

end Kernel

section Reference
open Cert.ReferenceIdeal Cert.ReferenceIdeal.Facts₀
variable [Cert.ReferenceIdeal.Facts₀]

/-- The wrap in the reference program's spelling. -/
theorem wrap_id_ref (N : BitVec 32) (x : IVec Cert.ReferenceIdeal.S4000000 32) (hx : ∀ e, 0 ≤ (x e).toInt) :
    select (cmpi .slt x (broadcastInDim Cert.ReferenceIdeal.S4000000 ![] Cert.ReferenceIdeal.Facts₀.bcast_S_S4000000 (constantI Cert.ReferenceIdeal.S_ 32 0#32)))
      (addi x (broadcastInDim Cert.ReferenceIdeal.S4000000 ![] Cert.ReferenceIdeal.Facts₀.bcast_S_S4000000 (constantI Cert.ReferenceIdeal.S_ 32 N))) x = x :=
  wrap_id_gen _ _ N x hx

end Reference

end Cert.PreIdx

end
-- ==== Proof.Boundary.lean ====
/-
  The buffers at the boundaries between the program's segments.

  A stretch of host operations leaves every buffer it does not write as it found it, and a tiled region leaves every
  buffer but its output array as it found it (an input array is read through its window and written back unchanged).
  So an argument array holds its launch contents at every boundary, and an intermediate array, once written, is
  carried unchanged to every later boundary at which it is read.
-/
import proofs.«116008_j56092272886142_2_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  after_results_simp <;> first | rfl | exact rfl
theorem W1_arg1 (c : Dev nD) : W1 (F := Ideal) m ρ c (Proc.devRef .tc main_arg1) = (m ((c : Thread nD τ).loc main_arg1)) := by
  show StableHlo.after hostOps0 (W0 m ρ c) (Proc.devRef .tc main_arg1) = _
  after_results_simp <;> first | rfl | exact rfl
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  after_results_simp <;> first | rfl | exact rfl
theorem W1_arg3 (c : Dev nD) : W1 (F := Ideal) m ρ c (Proc.devRef .tc main_arg3) = (m ((c : Thread nD τ).loc main_arg3)) := by
  show StableHlo.after hostOps0 (W0 m ρ c) (Proc.devRef .tc main_arg3) = _
  after_results_simp <;> first | rfl | exact rfl
theorem W1_arg5 (c : Dev nD) : W1 (F := Ideal) m ρ c (Proc.devRef .tc main_arg5) = (m ((c : Thread nD τ).loc main_arg5)) := by
  show StableHlo.after hostOps0 (W0 m ρ c) (Proc.devRef .tc main_arg5) = _
  after_results_simp <;> first | rfl | exact rfl
theorem W1_arg6 (c : Dev nD) : W1 (F := Ideal) m ρ c (Proc.devRef .tc main_arg6) = (m ((c : Thread nD τ).loc main_arg6)) := by
  show StableHlo.after hostOps0 (W0 m ρ c) (Proc.devRef .tc main_arg6) = _
  after_results_simp <;> first | rfl | exact rfl
theorem W1_arg7 (c : Dev nD) : W1 (F := Ideal) m ρ c (Proc.devRef .tc main_arg7) = (m ((c : Thread nD τ).loc main_arg7)) := by
  show StableHlo.after hostOps0 (W0 m ρ c) (Proc.devRef .tc main_arg7) = _
  after_results_simp <;> first | rfl | exact rfl
theorem W1_arg8 (c : Dev nD) : W1 (F := Ideal) m ρ c (Proc.devRef .tc main_arg8) = (m ((c : Thread nD τ).loc main_arg8)) := by
  show StableHlo.after hostOps0 (W0 m ρ c) (Proc.devRef .tc main_arg8) = _
  after_results_simp <;> first | rfl | exact rfl
theorem W1_arg9 (c : Dev nD) : W1 (F := Ideal) m ρ c (Proc.devRef .tc main_arg9) = (m ((c : Thread nD τ).loc main_arg9)) := by
  show StableHlo.after hostOps0 (W0 m ρ c) (Proc.devRef .tc main_arg9) = _
  after_results_simp <;> first | rfl | exact rfl
theorem W1_arg10 (c : Dev nD) : W1 (F := Ideal) m ρ c (Proc.devRef .tc main_arg10) = (m ((c : Thread nD τ).loc main_arg10)) := by
  show StableHlo.after hostOps0 (W0 m ρ c) (Proc.devRef .tc main_arg10) = _
  after_results_simp <;> first | rfl | exact rfl
theorem W1_arg11 (c : Dev nD) : W1 (F := Ideal) m ρ c (Proc.devRef .tc main_arg11) = (m ((c : Thread nD τ).loc main_arg11)) := by
  show StableHlo.after hostOps0 (W0 m ρ c) (Proc.devRef .tc main_arg11) = _
  after_results_simp <;> first | rfl | exact rfl
theorem W1_arg12 (c : Dev nD) : W1 (F := Ideal) m ρ c (Proc.devRef .tc main_arg12) = (m ((c : Thread nD τ).loc main_arg12)) := by
  show StableHlo.after hostOps0 (W0 m ρ c) (Proc.devRef .tc main_arg12) = _
  after_results_simp <;> first | rfl | exact rfl
theorem W1_arg13 (c : Dev nD) : W1 (F := Ideal) m ρ c (Proc.devRef .tc main_arg13) = (m ((c : Thread nD τ).loc main_arg13)) := by
  show StableHlo.after hostOps0 (W0 m ρ c) (Proc.devRef .tc main_arg13) = _
  after_results_simp <;> first | rfl | exact rfl
theorem W1_arg14 (c : Dev nD) : W1 (F := Ideal) m ρ c (Proc.devRef .tc main_arg14) = (m ((c : Thread nD τ).loc main_arg14)) := by
  show StableHlo.after hostOps0 (W0 m ρ c) (Proc.devRef .tc main_arg14) = _
  after_results_simp <;> first | rfl | exact rfl
theorem W1_arg15 (c : Dev nD) : W1 (F := Ideal) m ρ c (Proc.devRef .tc main_arg15) = (m ((c : Thread nD τ).loc main_arg15)) := by
  show StableHlo.after hostOps0 (W0 m ρ c) (Proc.devRef .tc main_arg15) = _
  after_results_simp <;> first | rfl | exact rfl
theorem W2_arg0 (c : Dev nD) : W2 (F := Ideal) m ρ c (Proc.devRef .tc main_arg0) = (m ((c : Thread nD τ).loc main_arg0)) :=
  (W2_of_ne m ρ c main_arg0 (by decide)).trans (W1_arg0 m ρ c)
theorem W2_arg1 (c : Dev nD) : W2 (F := Ideal) m ρ c (Proc.devRef .tc main_arg1) = (m ((c : Thread nD τ).loc main_arg1)) :=
  ((W2_arr m ρ c 2).trans (((dat0 (V1 m ρ) c).arrAt_in 2 rfl _).trans (A_eq0 (V1 m ρ) c 2))).trans (W1_arg1 m ρ c)
theorem W2_arg5 (c : Dev nD) : W2 (F := Ideal) m ρ c (Proc.devRef .tc main_arg5) = (m ((c : Thread nD τ).loc main_arg5)) :=
  (W2_of_ne m ρ c main_arg5 (by decide)).trans (W1_arg5 m ρ c)
theorem W2_arg6 (c : Dev nD) : W2 (F := Ideal) m ρ c (Proc.devRef .tc main_arg6) = (m ((c : Thread nD τ).loc main_arg6)) :=
  (W2_of_ne m ρ c main_arg6 (by decide)).trans (W1_arg6 m ρ c)
theorem W2_arg7 (c : Dev nD) : W2 (F := Ideal) m ρ c (Proc.devRef .tc main_arg7) = (m ((c : Thread nD τ).loc main_arg7)) :=
  (W2_of_ne m ρ c main_arg7 (by decide)).trans (W1_arg7 m ρ c)
theorem W2_arg8 (c : Dev nD) : W2 (F := Ideal) m ρ c (Proc.devRef .tc main_arg8) = (m ((c : Thread nD τ).loc main_arg8)) :=
  (W2_of_ne m ρ c main_arg8 (by decide)).trans (W1_arg8 m ρ c)
theorem W2_arg9 (c : Dev nD) : W2 (F := Ideal) m ρ c (Proc.devRef .tc main_arg9) = (m ((c : Thread nD τ).loc main_arg9)) :=
  (W2_of_ne m ρ c main_arg9 (by decide)).trans (W1_arg9 m ρ c)
theorem W2_arg10 (c : Dev nD) : W2 (F := Ideal) m ρ c (Proc.devRef .tc main_arg10) = (m ((c : Thread nD τ).loc main_arg10)) :=
  (W2_of_ne m ρ c main_arg10 (by decide)).trans (W1_arg10 m ρ c)
theorem W2_arg11 (c : Dev nD) : W2 (F := Ideal) m ρ c (Proc.devRef .tc main_arg11) = (m ((c : Thread nD τ).loc main_arg11)) :=
  (W2_of_ne m ρ c main_arg11 (by decide)).trans (W1_arg11 m ρ c)
theorem W2_arg12 (c : Dev nD) : W2 (F := Ideal) m ρ c (Proc.devRef .tc main_arg12) = (m ((c : Thread nD τ).loc main_arg12)) :=
  (W2_of_ne m ρ c main_arg12 (by decide)).trans (W1_arg12 m ρ c)
theorem W2_arg13 (c : Dev nD) : W2 (F := Ideal) m ρ c (Proc.devRef .tc main_arg13) = (m ((c : Thread nD τ).loc main_arg13)) :=
  (W2_of_ne m ρ c main_arg13 (by decide)).trans (W1_arg13 m ρ c)
theorem W2_arg14 (c : Dev nD) : W2 (F := Ideal) m ρ c (Proc.devRef .tc main_arg14) = (m ((c : Thread nD τ).loc main_arg14)) :=
  (W2_of_ne m ρ c main_arg14 (by decide)).trans (W1_arg14 m ρ c)
theorem W2_arg15 (c : Dev nD) : W2 (F := Ideal) m ρ c (Proc.devRef .tc main_arg15) = (m ((c : Thread nD τ).loc main_arg15)) :=
  (W2_of_ne m ρ c main_arg15 (by decide)).trans (W1_arg15 m ρ c)
theorem W3_arg0 (c : Dev nD) : W3 (F := Ideal) m ρ c (Proc.devRef .tc main_arg0) = (m ((c : Thread nD τ).loc main_arg0)) := by
  show StableHlo.after hostOps1 (W2 m ρ c) (Proc.devRef .tc main_arg0) = _
  after_results_simp <;> first | rfl | exact W2_arg0 m ρ c
theorem W3_arg5 (c : Dev nD) : W3 (F := Ideal) m ρ c (Proc.devRef .tc main_arg5) = (m ((c : Thread nD τ).loc main_arg5)) := by
  show StableHlo.after hostOps1 (W2 m ρ c) (Proc.devRef .tc main_arg5) = _
  after_results_simp <;> first | rfl | exact W2_arg5 m ρ c
theorem W3_arg6 (c : Dev nD) : W3 (F := Ideal) m ρ c (Proc.devRef .tc main_arg6) = (m ((c : Thread nD τ).loc main_arg6)) := by
  show StableHlo.after hostOps1 (W2 m ρ c) (Proc.devRef .tc main_arg6) = _
  after_results_simp <;> first | rfl | exact W2_arg6 m ρ c
theorem W3_arg8 (c : Dev nD) : W3 (F := Ideal) m ρ c (Proc.devRef .tc main_arg8) = (m ((c : Thread nD τ).loc main_arg8)) := by
  show StableHlo.after hostOps1 (W2 m ρ c) (Proc.devRef .tc main_arg8) = _
  after_results_simp <;> first | rfl | exact W2_arg8 m ρ c
theorem W3_arg9 (c : Dev nD) : W3 (F := Ideal) m ρ c (Proc.devRef .tc main_arg9) = (m ((c : Thread nD τ).loc main_arg9)) := by
  show StableHlo.after hostOps1 (W2 m ρ c) (Proc.devRef .tc main_arg9) = _
  after_results_simp <;> first | rfl | exact W2_arg9 m ρ c
theorem W3_arg10 (c : Dev nD) : W3 (F := Ideal) m ρ c (Proc.devRef .tc main_arg10) = (m ((c : Thread nD τ).loc main_arg10)) := by
  show StableHlo.after hostOps1 (W2 m ρ c) (Proc.devRef .tc main_arg10) = _
  after_results_simp <;> first | rfl | exact W2_arg10 m ρ c
theorem W3_arg11 (c : Dev nD) : W3 (F := Ideal) m ρ c (Proc.devRef .tc main_arg11) = (m ((c : Thread nD τ).loc main_arg11)) := by
  show StableHlo.after hostOps1 (W2 m ρ c) (Proc.devRef .tc main_arg11) = _
  after_results_simp <;> first | rfl | exact W2_arg11 m ρ c
theorem W3_arg12 (c : Dev nD) : W3 (F := Ideal) m ρ c (Proc.devRef .tc main_arg12) = (m ((c : Thread nD τ).loc main_arg12)) := by
  show StableHlo.after hostOps1 (W2 m ρ c) (Proc.devRef .tc main_arg12) = _
  after_results_simp <;> first | rfl | exact W2_arg12 m ρ c
theorem W3_arg13 (c : Dev nD) : W3 (F := Ideal) m ρ c (Proc.devRef .tc main_arg13) = (m ((c : Thread nD τ).loc main_arg13)) := by
  show StableHlo.after hostOps1 (W2 m ρ c) (Proc.devRef .tc main_arg13) = _
  after_results_simp <;> first | rfl | exact W2_arg13 m ρ c
theorem W3_arg14 (c : Dev nD) : W3 (F := Ideal) m ρ c (Proc.devRef .tc main_arg14) = (m ((c : Thread nD τ).loc main_arg14)) := by
  show StableHlo.after hostOps1 (W2 m ρ c) (Proc.devRef .tc main_arg14) = _
  after_results_simp <;> first | rfl | exact W2_arg14 m ρ c
theorem W3_arg15 (c : Dev nD) : W3 (F := Ideal) m ρ c (Proc.devRef .tc main_arg15) = (m ((c : Thread nD τ).loc main_arg15)) := by
  show StableHlo.after hostOps1 (W2 m ρ c) (Proc.devRef .tc main_arg15) = _
  after_results_simp <;> first | rfl | exact W2_arg15 m ρ c
theorem W4_arg8 (c : Dev nD) : W4 (F := Ideal) m ρ c (Proc.devRef .tc main_arg8) = (m ((c : Thread nD τ).loc main_arg8)) :=
  (W4_of_ne m ρ c main_arg8 (by decide)).trans (W3_arg8 m ρ c)
theorem W4_arg9 (c : Dev nD) : W4 (F := Ideal) m ρ c (Proc.devRef .tc main_arg9) = (m ((c : Thread nD τ).loc main_arg9)) :=
  (W4_of_ne m ρ c main_arg9 (by decide)).trans (W3_arg9 m ρ c)
theorem W4_arg10 (c : Dev nD) : W4 (F := Ideal) m ρ c (Proc.devRef .tc main_arg10) = (m ((c : Thread nD τ).loc main_arg10)) :=
  (W4_of_ne m ρ c main_arg10 (by decide)).trans (W3_arg10 m ρ c)
theorem W4_arg11 (c : Dev nD) : W4 (F := Ideal) m ρ c (Proc.devRef .tc main_arg11) = (m ((c : Thread nD τ).loc main_arg11)) :=
  (W4_of_ne m ρ c main_arg11 (by decide)).trans (W3_arg11 m ρ c)
theorem W4_arg12 (c : Dev nD) : W4 (F := Ideal) m ρ c (Proc.devRef .tc main_arg12) = (m ((c : Thread nD τ).loc main_arg12)) :=
  (W4_of_ne m ρ c main_arg12 (by decide)).trans (W3_arg12 m ρ c)
theorem W4_arg13 (c : Dev nD) : W4 (F := Ideal) m ρ c (Proc.devRef .tc main_arg13) = (m ((c : Thread nD τ).loc main_arg13)) :=
  (W4_of_ne m ρ c main_arg13 (by decide)).trans (W3_arg13 m ρ c)
theorem W4_arg14 (c : Dev nD) : W4 (F := Ideal) m ρ c (Proc.devRef .tc main_arg14) = (m ((c : Thread nD τ).loc main_arg14)) :=
  (W4_of_ne m ρ c main_arg14 (by decide)).trans (W3_arg14 m ρ c)
theorem W4_arg15 (c : Dev nD) : W4 (F := Ideal) m ρ c (Proc.devRef .tc main_arg15) = (m ((c : Thread nD τ).loc main_arg15)) :=
  (W4_of_ne m ρ c main_arg15 (by decide)).trans (W3_arg15 m ρ c)
theorem W5_arg8 (c : Dev nD) : W5 (F := Ideal) m ρ c (Proc.devRef .tc main_arg8) = (m ((c : Thread nD τ).loc main_arg8)) := by
  show StableHlo.after hostOps2 (W4 m ρ c) (Proc.devRef .tc main_arg8) = _
  after_results_simp <;> first | rfl | exact W4_arg8 m ρ c
theorem W5_arg9 (c : Dev nD) : W5 (F := Ideal) m ρ c (Proc.devRef .tc main_arg9) = (m ((c : Thread nD τ).loc main_arg9)) := by
  show StableHlo.after hostOps2 (W4 m ρ c) (Proc.devRef .tc main_arg9) = _
  after_results_simp <;> first | rfl | exact W4_arg9 m ρ c
theorem W5_arg11 (c : Dev nD) : W5 (F := Ideal) m ρ c (Proc.devRef .tc main_arg11) = (m ((c : Thread nD τ).loc main_arg11)) := by
  show StableHlo.after hostOps2 (W4 m ρ c) (Proc.devRef .tc main_arg11) = _
  after_results_simp <;> first | rfl | exact W4_arg11 m ρ c
theorem W5_arg12 (c : Dev nD) : W5 (F := Ideal) m ρ c (Proc.devRef .tc main_arg12) = (m ((c : Thread nD τ).loc main_arg12)) := by
  show StableHlo.after hostOps2 (W4 m ρ c) (Proc.devRef .tc main_arg12) = _
  after_results_simp <;> first | rfl | exact W4_arg12 m ρ c
theorem W5_arg13 (c : Dev nD) : W5 (F := Ideal) m ρ c (Proc.devRef .tc main_arg13) = (m ((c : Thread nD τ).loc main_arg13)) := by
  show StableHlo.after hostOps2 (W4 m ρ c) (Proc.devRef .tc main_arg13) = _
  after_results_simp <;> first | rfl | exact W4_arg13 m ρ c
theorem W5_arg14 (c : Dev nD) : W5 (F := Ideal) m ρ c (Proc.devRef .tc main_arg14) = (m ((c : Thread nD τ).loc main_arg14)) := by
  show StableHlo.after hostOps2 (W4 m ρ c) (Proc.devRef .tc main_arg14) = _
  after_results_simp <;> first | rfl | exact W4_arg14 m ρ c
theorem W5_arg15 (c : Dev nD) : W5 (F := Ideal) m ρ c (Proc.devRef .tc main_arg15) = (m ((c : Thread nD τ).loc main_arg15)) := by
  show StableHlo.after hostOps2 (W4 m ρ c) (Proc.devRef .tc main_arg15) = _
  after_results_simp <;> first | rfl | exact W4_arg15 m ρ c
theorem W6_arg11 (c : Dev nD) : W6 (F := Ideal) m ρ c (Proc.devRef .tc main_arg11) = (m ((c : Thread nD τ).loc main_arg11)) :=
  (W6_of_ne m ρ c main_arg11 (by decide)).trans (W5_arg11 m ρ c)
theorem W6_arg12 (c : Dev nD) : W6 (F := Ideal) m ρ c (Proc.devRef .tc main_arg12) = (m ((c : Thread nD τ).loc main_arg12)) :=
  (W6_of_ne m ρ c main_arg12 (by decide)).trans (W5_arg12 m ρ c)
theorem W6_arg13 (c : Dev nD) : W6 (F := Ideal) m ρ c (Proc.devRef .tc main_arg13) = (m ((c : Thread nD τ).loc main_arg13)) :=
  (W6_of_ne m ρ c main_arg13 (by decide)).trans (W5_arg13 m ρ c)
theorem W6_arg14 (c : Dev nD) : W6 (F := Ideal) m ρ c (Proc.devRef .tc main_arg14) = (m ((c : Thread nD τ).loc main_arg14)) :=
  (W6_of_ne m ρ c main_arg14 (by decide)).trans (W5_arg14 m ρ c)
theorem W6_arg15 (c : Dev nD) : W6 (F := Ideal) m ρ c (Proc.devRef .tc main_arg15) = (m ((c : Thread nD τ).loc main_arg15)) :=
  (W6_of_ne m ρ c main_arg15 (by decide)).trans (W5_arg15 m ρ c)
theorem W7_arg11 (c : Dev nD) : W7 (F := Ideal) m ρ c (Proc.devRef .tc main_arg11) = (m ((c : Thread nD τ).loc main_arg11)) := by
  show StableHlo.after hostOps3 (W6 m ρ c) (Proc.devRef .tc main_arg11) = _
  after_results_simp <;> first | rfl | exact W6_arg11 m ρ c
theorem W7_arg12 (c : Dev nD) : W7 (F := Ideal) m ρ c (Proc.devRef .tc main_arg12) = (m ((c : Thread nD τ).loc main_arg12)) := by
  show StableHlo.after hostOps3 (W6 m ρ c) (Proc.devRef .tc main_arg12) = _
  after_results_simp <;> first | rfl | exact W6_arg12 m ρ c
theorem W2_v10 (c : Dev nD) : W2 (F := Ideal) m ρ c (Proc.devRef .tc main_v10) = W1 m ρ c (Proc.devRef .tc main_v10) :=
  ((W2_arr m ρ c 1).trans (((dat0 (V1 m ρ) c).arrAt_in 1 rfl _).trans (A_eq0 (V1 m ρ) c 1)))
theorem W3_v10 (c : Dev nD) : W3 (F := Ideal) m ρ c (Proc.devRef .tc main_v10) = W1 m ρ c (Proc.devRef .tc main_v10) := by
  refine Eq.trans ?_ (W2_v10 m ρ c)
  show StableHlo.after hostOps1 (W2 m ρ c) (Proc.devRef .tc main_v10) = W2 m ρ c (Proc.devRef .tc main_v10)
  generalize W2 (F := Ideal) m ρ c = X
  after_results_simp
theorem W4_v10 (c : Dev nD) : W4 (F := Ideal) m ρ c (Proc.devRef .tc main_v10) = W1 m ρ c (Proc.devRef .tc main_v10) :=
  (W4_of_ne m ρ c main_v10 (by decide)).trans (W3_v10 m ρ c)
theorem W5_v10 (c : Dev nD) : W5 (F := Ideal) m ρ c (Proc.devRef .tc main_v10) = W1 m ρ c (Proc.devRef .tc main_v10) := by
  refine Eq.trans ?_ (W4_v10 m ρ c)
  show StableHlo.after hostOps2 (W4 m ρ c) (Proc.devRef .tc main_v10) = W4 m ρ c (Proc.devRef .tc main_v10)
  generalize W4 (F := Ideal) m ρ c = X
  after_results_simp
theorem W2_v21 (c : Dev nD) : W2 (F := Ideal) m ρ c (Proc.devRef .tc main_v21) = W1 m ρ c (Proc.devRef .tc main_v21) :=
  (W2_of_ne m ρ c main_v21 (by decide))
theorem W3_v21 (c : Dev nD) : W3 (F := Ideal) m ρ c (Proc.devRef .tc main_v21) = W1 m ρ c (Proc.devRef .tc main_v21) := by
  refine Eq.trans ?_ (W2_v21 m ρ c)
  show StableHlo.after hostOps1 (W2 m ρ c) (Proc.devRef .tc main_v21) = W2 m ρ c (Proc.devRef .tc main_v21)
  generalize W2 (F := Ideal) m ρ c = X
  after_results_simp
theorem W4_v21 (c : Dev nD) : W4 (F := Ideal) m ρ c (Proc.devRef .tc main_v21) = W1 m ρ c (Proc.devRef .tc main_v21) :=
  ((W4_arr m ρ c 1).trans (((dat1 (V3 m ρ) c).arrAt_in 1 rfl _).trans (A_eq1 (V3 m ρ) c 1))).trans (W3_v21 m ρ c)
theorem W5_v21 (c : Dev nD) : W5 (F := Ideal) m ρ c (Proc.devRef .tc main_v21) = W1 m ρ c (Proc.devRef .tc main_v21) := by
  refine Eq.trans ?_ (W4_v21 m ρ c)
  show StableHlo.after hostOps2 (W4 m ρ c) (Proc.devRef .tc main_v21) = W4 m ρ c (Proc.devRef .tc main_v21)
  generalize W4 (F := Ideal) m ρ c = X
  after_results_simp
theorem W6_v21 (c : Dev nD) : W6 (F := Ideal) m ρ c (Proc.devRef .tc main_v21) = W1 m ρ c (Proc.devRef .tc main_v21) :=
  (W6_of_ne m ρ c main_v21 (by decide)).trans (W5_v21 m ρ c)
theorem W7_v21 (c : Dev nD) : W7 (F := Ideal) m ρ c (Proc.devRef .tc main_v21) = W1 m ρ c (Proc.devRef .tc main_v21) := by
  refine Eq.trans ?_ (W6_v21 m ρ c)
  show StableHlo.after hostOps3 (W6 m ρ c) (Proc.devRef .tc main_v21) = W6 m ρ c (Proc.devRef .tc main_v21)
  generalize W6 (F := Ideal) m ρ c = X
  after_results_simp
theorem W3_v40 (c : Dev nD) : W3 (F := Ideal) m ρ c (Proc.devRef .tc main_v40) = W2 m ρ c (Proc.devRef .tc main_v40) := by
  show StableHlo.after hostOps1 (W2 m ρ c) (Proc.devRef .tc main_v40) = W2 m ρ c (Proc.devRef .tc main_v40)
  generalize W2 (F := Ideal) m ρ c = X
  after_results_simp
theorem W4_v40 (c : Dev nD) : W4 (F := Ideal) m ρ c (Proc.devRef .tc main_v40) = W2 m ρ c (Proc.devRef .tc main_v40) :=
  (W4_of_ne m ρ c main_v40 (by decide)).trans (W3_v40 m ρ c)
theorem W5_v40 (c : Dev nD) : W5 (F := Ideal) m ρ c (Proc.devRef .tc main_v40) = W2 m ρ c (Proc.devRef .tc main_v40) := by
  refine Eq.trans ?_ (W4_v40 m ρ c)
  show StableHlo.after hostOps2 (W4 m ρ c) (Proc.devRef .tc main_v40) = W4 m ρ c (Proc.devRef .tc main_v40)
  generalize W4 (F := Ideal) m ρ c = X
  after_results_simp
theorem W6_v40 (c : Dev nD) : W6 (F := Ideal) m ρ c (Proc.devRef .tc main_v40) = W2 m ρ c (Proc.devRef .tc main_v40) :=
  ((W6_arr m ρ c 2).trans (((dat2 (V5 m ρ) c).arrAt_in 2 rfl _).trans (A_eq2 (V5 m ρ) c 2))).trans (W5_v40 m ρ c)
theorem W5_v59 (c : Dev nD) : W5 (F := Ideal) m ρ c (Proc.devRef .tc main_v59) = W4 m ρ c (Proc.devRef .tc main_v59) := by
  show StableHlo.after hostOps2 (W4 m ρ c) (Proc.devRef .tc main_v59) = W4 m ρ c (Proc.devRef .tc main_v59)
  generalize W4 (F := Ideal) m ρ c = X
  after_results_simp
theorem W6_v59 (c : Dev nD) : W6 (F := Ideal) m ρ c (Proc.devRef .tc main_v59) = W4 m ρ c (Proc.devRef .tc main_v59) :=
  (W6_of_ne m ρ c main_v59 (by decide)).trans (W5_v59 m ρ c)
theorem W7_v59 (c : Dev nD) : W7 (F := Ideal) m ρ c (Proc.devRef .tc main_v59) = W4 m ρ c (Proc.devRef .tc main_v59) := by
  refine Eq.trans ?_ (W6_v59 m ρ c)
  show StableHlo.after hostOps3 (W6 m ρ c) (Proc.devRef .tc main_v59) = W6 m ρ c (Proc.devRef .tc main_v59)
  generalize W6 (F := Ideal) m ρ c = X
  after_results_simp
theorem W7_v78 (c : Dev nD) : W7 (F := Ideal) m ρ c (Proc.devRef .tc main_v78) = W6 m ρ c (Proc.devRef .tc main_v78) := by
  show StableHlo.after hostOps3 (W6 m ρ c) (Proc.devRef .tc main_v78) = W6 m ρ c (Proc.devRef .tc main_v78)
  generalize W6 (F := Ideal) m ρ c = X
  after_results_simp
theorem W8_v78 (c : Dev nD) : W8 (F := Ideal) m ρ c (Proc.devRef .tc main_v78) = W6 m ρ c (Proc.devRef .tc main_v78) :=
  (W8_of_ne m ρ c main_v78 (by decide)).trans (W7_v78 m ρ c)

end Cert.KernelIdeal.Boundary

end
-- ==== Proof.Spec.lean ====
/-
  One entry of a mean-aggregating graph-convolution layer over the extended reals.

  A destination row has a feature sum `s` (the sum of its neighbours' rows), an in-degree `cnt`, and its own
  features `x`.  The layer's entry at output column `q` is
      ∑ₖ (s k / max cnt 1) · Wl k  +  ∑ₖ x k · Wr k  +  b,
  optionally followed by a maximum with zero.  The two programs associate the three summands differently:
  one adds the bias last, the other adds it to the first product before the second product.  Addition on the
  extended reals is commutative and associative (the value of `⊥ + ⊤` is fixed once and for all), so both
  associations denote one value; no finiteness is used.
-/
import Mathlib.Data.EReal.Basic
import Mathlib.Algebra.BigOperators.Group.Finset.Basic
import Idealize.ShloMosaic.PureOps.Ideal

noncomputable section

namespace Cert.Spec

open Idealize.ShloMosaic

/-- The word `0x3F800000` read as a float: the number one. -/
abbrev one : EReal := Ideal.ofBits .f32 0x3F800000#32
/-- The word `0x00000000` read as a float: the number zero. -/
abbrev zero : EReal := Ideal.ofBits .f32 0x00000000#32

/-- A neighbour sum divided by the in-degree, the in-degree raised to at least one (an isolated node keeps `s / 1`). -/
def mean (s cnt : EReal) : EReal := Ideal.div s (max cnt one)

/-- The entry with the bias added last: `(mean·Wl + x·Wr) + b`. -/
def biasLast (s : Fin 64 → EReal) (cnt : EReal) (x Wl Wr : Fin 64 → EReal) (b : EReal) : EReal :=
  ((∑ k : Fin 64, mean (s k) cnt * Wl k) + ∑ k : Fin 64, x k * Wr k) + b

/-- The entry with the bias added to the first product: `(mean·Wl + b) + x·Wr`. -/
def biasFirst (s : Fin 64 → EReal) (cnt : EReal) (x Wl Wr : Fin 64 → EReal) (b : EReal) : EReal :=
  ((∑ k : Fin 64, mean (s k) cnt * Wl k) + b) + ∑ k : Fin 64, x k * Wr k

/-- The two associations agree: addition of extended reals is commutative and associative. -/
theorem biasLast_eq_biasFirst (s : Fin 64 → EReal) (cnt : EReal) (x Wl Wr : Fin 64 → EReal) (b : EReal) :
    biasLast s cnt x Wl Wr b = biasFirst s cnt x Wl Wr b := by
  unfold biasLast biasFirst
  exact add_right_comm _ _ _

end Cert.Spec

end
-- ==== Proof.Layer0.lean ====
/-
  The first tiled region's output array as ONE function of the arrays it reads.

  The region walks 25 row blocks of 4000 rows.  At block `t` it reads rows `4000·t … 4000·t + 3999` of the neighbour
  sums, of the in-degree column and of the destination features, the two whole 64×64 weight matrices and the bias
  row, and writes the same rows of the result.  Entry `(p, q)` of a block depends only on row `p` of the three
  row-blocked inputs and on column `q` of the weights and the bias, so the 25 blocks are restrictions of one
  whole-array function `G`: row `r`, column `q` of the result is the layer's entry built from row `r` of the inputs.
  The blocks tile the array (row `r` lies in block `r / 4000`), hence the array ends holding `G` everywhere.
-/
import proofs.«116008_j56092272886142_2_alg».proof.Proof.Gen.KernelIdeal.Frame
import proofs.«116008_j56092272886142_2_alg».proof.Proof.Spec
import Idealize.ShloMosaic.Lib.ValueIdx
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of an array index, as a number below the row count. -/
abbrev row (i : S100000x64.Idx) : Fin 100000 := ⟨(i 0).val, idx2_lt0 i⟩
/-- Column `q` of an array index. -/
abbrev col (i : S100000x64.Idx) : Fin 64 := ⟨(i 1).val, idx2_lt1 i⟩
/-- Row and column of an index inside one 4000 × 64 block. -/
abbrev brow (j : S4000x64.Idx) : Fin 4000 := ⟨(j 0).val, idx2_lt0 j⟩
abbrev bcol (j : S4000x64.Idx) : Fin 64 := ⟨(j 1).val, idx2_lt1 j⟩

/-- The layer over whole arrays: entry `(r, q)` from row `r` of the sums, the in-degree and the features, and
    column `q` of the two weight matrices and the bias; a maximum with zero at the end. -/
def G (A0 : S100000x64.Idx → Elt Ideal .f32) (A1 : S100000x1.Idx → Elt Ideal .f32) (A2 : S100000x64.Idx → Elt Ideal .f32)
    (A3 A4 : S64x64.Idx → Elt Ideal .f32) (A5 : S1x64.Idx → Elt Ideal .f32) : S100000x64.Idx → Elt Ideal .f32 :=
  fun i => max (Cert.Spec.biasLast (fun k => A0 (ix2 (row i) k)) (A1 (ix2 (row i) (0 : Fin 1))) (fun k => A2 (ix2 (row i) k))
      (fun k => A3 (ix2 k (col i))) (fun k => A4 (ix2 k (col i))) (A5 (ix2 (0 : Fin 1) (col i)))) Cert.Spec.zero

/-- The body's stored value read at `(p, q)` of a block, over any six loaded vectors. -/
abbrev PayloadReads : Prop :=
  ∀ (v0 : Vec Ideal S4000x1 .f32) (v4 v9 : Vec Ideal S4000x64 .f32) (v11 v13 : Vec Ideal S64x64 .f32) (v18 : Vec Ideal S1x64 .f32)
    (p : Fin 4000) (q : Fin 64),
    k0_pay1 (F := Ideal) v0 v4 v9 v11 v13 v18 (ix2 p q)
      = max (Cert.Spec.biasLast (fun k => v4 (ix2 p k)) (v0 (ix2 p (0 : Fin 1))) (fun k => v9 (ix2 p k))
      (fun k => v11 (ix2 k q)) (fun k => v13 (ix2 k q)) (v18 (ix2 (0 : Fin 1) q))) Cert.Spec.zero

/-- The stored value at any index `j` of a block. -/
theorem point_eq (hpay : PayloadReads) (x0 : Vec Ideal S4000x64 .f32) (x1 : Vec Ideal S4000x1 .f32) (x2 : Vec Ideal S4000x64 .f32)
    (x3 x4 : Vec Ideal S64x64 .f32) (x5 : Vec Ideal S1x64 .f32) (j : S4000x64.Idx) :
    k0_pay1 (F := Ideal) x1 x0 x2 x3 x4 x5 j
      = max (Cert.Spec.biasLast (fun k => x0 (ix2 (brow j) k)) (x1 (ix2 (brow j) (0 : Fin 1))) (fun k => x2 (ix2 (brow j) k))
      (fun k => x3 (ix2 k (bcol j))) (fun k => x4 (ix2 k (bcol j))) (x5 (ix2 (0 : Fin 1) (bcol j)))) Cert.Spec.zero := by
  have h := hpay x1 x0 x2 x3 x4 x5 (brow j) (bcol j)
  have e : ix2 (brow j) (bcol j) = j := by
    funext a; match a with | ⟨0, _⟩ => rfl | ⟨1, _⟩ => rfl
  rw [e] at h
  exact h

/-- The printed index maps, decided over the 25 points: the three row-blocked inputs and the output sit at row
    block `t`, column block 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `G` of the arrays as the region finds them. -/
theorem flushed_eq (hpay : PayloadReads) (c : Dev nD) (t : Fin cfg0.N) :
    (dat0 (F := Ideal) V c).flushed 6 t = ((cfg0.win 6).blk t).view.read (Elt Ideal)
      (G (V c main_v38) (V c main_v10) (V c main_arg1) (V c main_arg2) (V c main_arg3) (V c main_v39)) := by
  show (cfg0.win 6).cut (grid0.coords t) ((dat0 V c).after 6 t) = _
  rw [after0_6]
  unfold out0_6
  rw [View.canon_unit_zero hz]
  simp only [View.ld_unit_zero (S := S4000x64) hz, View.ld_unit_zero (S := S4000x1) hz, View.ld_unit_zero (S := S64x64) hz,
    View.ld_unit_zero (S := S1x64) hz]
  funext j
  show k0_pay1 (F := Ideal) (iblk0 V c 1 t) (iblk0 V c 0 t) (iblk0 V c 2 t) (iblk0 V c 3 t) (iblk0 V c 4 t) (iblk0 V c 5 t) j
    = G (V c main_v38) (V c main_v10) (V c main_arg1) (V c main_arg2) (V c main_arg3) (V c main_v39) (((cfg0.win 6).blk t).view.emb j)
  refine (point_eq hpay (iblk0 V c 0 t) (iblk0 V c 1 t) (iblk0 V c 2 t) (iblk0 V c 3 t) (iblk0 V c 4 t) (iblk0 V c 5 t) j).trans ?_
  obtain ⟨e00, e01, e10, e11, e20, e21, e30, e31, e40, e41, e50, e51, e60, e61⟩ := idx_facts t
  have hj0 : (j 0).val < 4000 := (j 0).isLt
  have hj1 : (j 1).val < 64 := (j 1).isLt
  have r0 : ∀ k : Fin 64, iblk0 V c 0 t (ix2 (brow j) k) = V c main_v38 (ix2 (row (((cfg0.win 6).blk t).view.emb j)) k) := fun k => by
    show V c main_v38 (((cfg0.win 0).blk t).view.emb (ix2 (brow j) k)) = V c main_v38 (ix2 (row (((cfg0.win 6).blk t).view.emb j)) k)
    refine congrArg (V c main_v38) (funext fun a => Fin.ext ?_)
    match a with
    | ⟨0, _⟩ => show win0_0.index t (0 : Fin 2) * 4000 + 1 * (j 0).val = win0_6.index t (0 : Fin 2) * 4000 + 1 * (j 0).val; omega
    | ⟨1, _⟩ => show win0_0.index t (1 : Fin 2) * 64 + 1 * k.val = k.val; omega
  have r1 : iblk0 V c 1 t (ix2 (brow j) (0 : Fin 1)) = V c main_v10 (ix2 (row (((cfg0.win 6).blk t).view.emb j)) (0 : Fin 1)) := by
    show V c main_v10 (((cfg0.win 1).blk t).view.emb (ix2 (brow j) (0 : Fin 1))) = V c main_v10 (ix2 (row (((cfg0.win 6).blk t).view.emb j)) (0 : Fin 1))
    refine congrArg (V c main_v10) (funext fun a => Fin.ext ?_)
    match a with
    | ⟨0, _⟩ => show win0_1.index t (0 : Fin 2) * 4000 + 1 * (j 0).val = win0_6.index t (0 : Fin 2) * 4000 + 1 * (j 0).val; omega
    | ⟨1, _⟩ => show win0_1.index t (1 : Fin 2) * 1 + 1 * 0 = 0; omega
  have r2 : ∀ k : Fin 64, iblk0 V c 2 t (ix2 (brow j) k) = V c main_arg1 (ix2 (row (((cfg0.win 6).blk t).view.emb j)) k) := fun k => by
    show V c main_arg1 (((cfg0.win 2).blk t).view.emb (ix2 (brow j) k)) = V c main_arg1 (ix2 (row (((cfg0.win 6).blk t).view.emb j)) k)
    refine congrArg (V c main_arg1) (funext fun a => Fin.ext ?_)
    match a with
    | ⟨0, _⟩ => show win0_2.index t (0 : Fin 2) * 4000 + 1 * (j 0).val = win0_6.index t (0 : Fin 2) * 4000 + 1 * (j 0).val; omega
    | ⟨1, _⟩ => show win0_2.index t (1 : Fin 2) * 64 + 1 * k.val = k.val; omega
  have r3 : ∀ k : Fin 64, iblk0 V c 3 t (ix2 k (bcol j)) = V c main_arg2 (ix2 k (col (((cfg0.win 6).blk t).view.emb j))) := fun k => by
    show V c main_arg2 (((cfg0.win 3).blk t).view.emb (ix2 k (bcol j))) = V c main_arg2 (ix2 k (col (((cfg0.win 6).blk t).view.emb j)))
    refine congrArg (V c main_arg2) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_6.index t (1 : Fin 2) * 64 + 1 * (j 1).val; omega
  have r4 : ∀ k : Fin 64, iblk0 V c 4 t (ix2 k (bcol j)) = V c main_arg3 (ix2 k (col (((cfg0.win 6).blk t).view.emb j))) := fun k => by
    show V c main_arg3 (((cfg0.win 4).blk t).view.emb (ix2 k (bcol j))) = V c main_arg3 (ix2 k (col (((cfg0.win 6).blk t).view.emb j)))
    refine congrArg (V c main_arg3) (funext fun a => Fin.ext ?_)
    match a with
    | ⟨0, _⟩ => show win0_4.index t (0 : Fin 2) * 64 + 1 * k.val = k.val; omega
    | ⟨1, _⟩ => show win0_4.index t (1 : Fin 2) * 64 + 1 * (j 1).val = win0_6.index t (1 : Fin 2) * 64 + 1 * (j 1).val; omega
  have r5 : iblk0 V c 5 t (ix2 (0 : Fin 1) (bcol j)) = V c main_v39 (ix2 (0 : Fin 1) (col (((cfg0.win 6).blk t).view.emb j))) := by
    show V c main_v39 (((cfg0.win 5).blk t).view.emb (ix2 (0 : Fin 1) (bcol j))) = V c main_v39 (ix2 (0 : Fin 1) (col (((cfg0.win 6).blk t).view.emb j)))
    refine congrArg (V c main_v39) (funext fun a => Fin.ext ?_)
    match a with
    | ⟨0, _⟩ => show win0_5.index t (0 : Fin 2) * 1 + 1 * 0 = 0; omega
    | ⟨1, _⟩ => show win0_5.index t (1 : Fin 2) * 64 + 1 * (j 1).val = win0_6.index t (1 : Fin 2) * 64 + 1 * (j 1).val; omega
  unfold G
  simp only [r0, r1, r2, r3, r4, r5]

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v40).slice (win0_6.rect t)).set ↔ _
  rw [View.set_slice_whole, Rect.mem_set_unit]
  exact Iff.rfl

/-- Every index of the array lies in some point's block: row `r` in block `r / 4000`. -/
theorem cover (i : S100000x64.Idx) : ∃ t : Fin cfg0.N, (cfg0.win 6).flush t = true ∧ i ∈ ((cfg0.win 6).blk t).view.set := by
  have hi0 : (i 0).val < 100000 := idx2_lt0 i
  have hi1 : (i 1).val < 64 := idx2_lt1 i
  have hN : grid0.N = 25 := N_0
  have ht : (i 0).val / 4000 < cfg0.N := by show (i 0).val / 4000 < grid0.N; rw [hN]; omega
  refine ⟨⟨(i 0).val / 4000, ht⟩, flush0_6 _, ?_⟩
  rw [mem_blk]
  obtain ⟨-, -, -, -, -, -, -, -, -, -, -, -, e60, e61⟩ := idx_facts ⟨(i 0).val / 4000, ht⟩
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, ht⟩ (1 : Fin 2) * 64 ≤ (i 1).val ∧ (i 1).val < win0_6.index ⟨(i 0).val / 4000, ht⟩ (1 : Fin 2) * 64 + 64
    rw [e61]; omega

/-- The array after the region: `G` of the arrays as the region finds them. -/
theorem final (hpay : PayloadReads) (c : Dev nD) :
    (dat0 (F := Ideal) V c).arrAt 6 cfg0.N = G (V c main_v38) (V c main_v10) (V c main_arg1) (V c main_arg2) (V c main_arg3) (V c main_v39) :=
  (dat0 (F := Ideal) V c).arrAt_eq_of_cover 6 (G (V c main_v38) (V c main_v10) (V c main_arg1) (V c main_arg2) (V c main_arg3) (V c main_v39)) (fun t _ => flushed_eq V hpay c t) cover

end Cert.KernelIdeal.Layer0

end
-- ==== Proof.Layer1.lean ====
/-
  The second tiled region's output array as ONE function of the arrays it reads.

  The region walks 50 row blocks of 4000 rows.  At block `t` it reads rows `4000·t … 4000·t + 3999` of the neighbour
  sums, of the in-degree column and of the destination features, the two whole 64×64 weight matrices and the bias
  row, and writes the same rows of the result.  Entry `(p, q)` of a block depends only on row `p` of the three
  row-blocked inputs and on column `q` of the weights and the bias, so the 50 blocks are restrictions of one
  whole-array function `G`: row `r`, column `q` of the result is the layer's entry built from row `r` of the inputs.
  The blocks tile the array (row `r` lies in block `r / 4000`), hence the array ends holding `G` everywhere.
-/
import proofs.«116008_j56092272886142_2_alg».proof.Proof.Gen.KernelIdeal.Frame
import proofs.«116008_j56092272886142_2_alg».proof.Proof.Spec
import Idealize.ShloMosaic.Lib.ValueIdx
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of an array index, as a number below the row count. -/
abbrev row (i : S200000x64.Idx) : Fin 200000 := ⟨(i 0).val, idx2_lt0 i⟩
/-- Column `q` of an array index. -/
abbrev col (i : S200000x64.Idx) : Fin 64 := ⟨(i 1).val, idx2_lt1 i⟩
/-- Row and column of an index inside one 4000 × 64 block. -/
abbrev brow (j : S4000x64.Idx) : Fin 4000 := ⟨(j 0).val, idx2_lt0 j⟩
abbrev bcol (j : S4000x64.Idx) : Fin 64 := ⟨(j 1).val, idx2_lt1 j⟩

/-- The layer over whole arrays: entry `(r, q)` from row `r` of the sums, the in-degree and the features, and
    column `q` of the two weight matrices and the bias; a maximum with zero at the end. -/
def G (A0 : S200000x64.Idx → Elt Ideal .f32) (A1 : S200000x1.Idx → Elt Ideal .f32) (A2 : S200000x64.Idx → Elt Ideal .f32)
    (A3 A4 : S64x64.Idx → Elt Ideal .f32) (A5 : S1x64.Idx → Elt Ideal .f32) : S200000x64.Idx → Elt Ideal .f32 :=
  fun i => max (Cert.Spec.biasLast (fun k => A0 (ix2 (row i) k)) (A1 (ix2 (row i) (0 : Fin 1))) (fun k => A2 (ix2 (row i) k))
      (fun k => A3 (ix2 k (col i))) (fun k => A4 (ix2 k (col i))) (A5 (ix2 (0 : Fin 1) (col i)))) Cert.Spec.zero

/-- The body's stored value read at `(p, q)` of a block, over any six loaded vectors. -/
abbrev PayloadReads : Prop :=
  ∀ (v0 : Vec Ideal S4000x1 .f32) (v4 v9 : Vec Ideal S4000x64 .f32) (v11 v13 : Vec Ideal S64x64 .f32) (v18 : Vec Ideal S1x64 .f32)
    (p : Fin 4000) (q : Fin 64),
    k1_pay1 (F := Ideal) v0 v4 v9 v11 v13 v18 (ix2 p q)
      = max (Cert.Spec.biasLast (fun k => v4 (ix2 p k)) (v0 (ix2 p (0 : Fin 1))) (fun k => v9 (ix2 p k))
      (fun k => v11 (ix2 k q)) (fun k => v13 (ix2 k q)) (v18 (ix2 (0 : Fin 1) q))) Cert.Spec.zero

/-- The stored value at any index `j` of a block. -/
theorem point_eq (hpay : PayloadReads) (x0 : Vec Ideal S4000x64 .f32) (x1 : Vec Ideal S4000x1 .f32) (x2 : Vec Ideal S4000x64 .f32)
    (x3 x4 : Vec Ideal S64x64 .f32) (x5 : Vec Ideal S1x64 .f32) (j : S4000x64.Idx) :
    k1_pay1 (F := Ideal) x1 x0 x2 x3 x4 x5 j
      = max (Cert.Spec.biasLast (fun k => x0 (ix2 (brow j) k)) (x1 (ix2 (brow j) (0 : Fin 1))) (fun k => x2 (ix2 (brow j) k))
      (fun k => x3 (ix2 k (bcol j))) (fun k => x4 (ix2 k (bcol j))) (x5 (ix2 (0 : Fin 1) (bcol j)))) Cert.Spec.zero := by
  have h := hpay x1 x0 x2 x3 x4 x5 (brow j) (bcol j)
  have e : ix2 (brow j) (bcol j) = j := by
    funext a; match a with | ⟨0, _⟩ => rfl | ⟨1, _⟩ => rfl
  rw [e] at h
  exact h

/-- The printed index maps, decided over the 50 points: the three row-blocked inputs and the output sit at row
    block `t`, column block 0; the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `G` of the arrays as the region finds them. -/
theorem flushed_eq (hpay : PayloadReads) (c : Dev nD) (t : Fin cfg1.N) :
    (dat1 (F := Ideal) V c).flushed 6 t = ((cfg1.win 6).blk t).view.read (Elt Ideal)
      (G (V c main_v57) (V c main_v21) (V c main_arg0) (V c main_arg5) (V c main_arg6) (V c main_v58)) := by
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz, View.ld_unit_zero (S := S64x64) hz,
    View.ld_unit_zero (S := S1x64) hz]
  funext j
  show k1_pay1 (F := Ideal) (iblk1 V c 1 t) (iblk1 V c 0 t) (iblk1 V c 2 t) (iblk1 V c 3 t) (iblk1 V c 4 t) (iblk1 V c 5 t) j
    = G (V c main_v57) (V c main_v21) (V c main_arg0) (V c main_arg5) (V c main_arg6) (V c main_v58) (((cfg1.win 6).blk t).view.emb j)
  refine (point_eq hpay (iblk1 V c 0 t) (iblk1 V c 1 t) (iblk1 V c 2 t) (iblk1 V c 3 t) (iblk1 V c 4 t) (iblk1 V c 5 t) j).trans ?_
  obtain ⟨e00, e01, e10, e11, e20, e21, e30, e31, e40, e41, e50, e51, e60, e61⟩ := idx_facts t
  have hj0 : (j 0).val < 4000 := (j 0).isLt
  have hj1 : (j 1).val < 64 := (j 1).isLt
  have r0 : ∀ k : Fin 64, iblk1 V c 0 t (ix2 (brow j) k) = V c main_v57 (ix2 (row (((cfg1.win 6).blk t).view.emb j)) k) := fun k => by
    show V c main_v57 (((cfg1.win 0).blk t).view.emb (ix2 (brow j) k)) = V c main_v57 (ix2 (row (((cfg1.win 6).blk t).view.emb j)) k)
    refine congrArg (V c main_v57) (funext fun a => Fin.ext ?_)
    match a with
    | ⟨0, _⟩ => show win1_0.index t (0 : Fin 2) * 4000 + 1 * (j 0).val = win1_6.index t (0 : Fin 2) * 4000 + 1 * (j 0).val; omega
    | ⟨1, _⟩ => show win1_0.index t (1 : Fin 2) * 64 + 1 * k.val = k.val; omega
  have r1 : iblk1 V c 1 t (ix2 (brow j) (0 : Fin 1)) = V c main_v21 (ix2 (row (((cfg1.win 6).blk t).view.emb j)) (0 : Fin 1)) := by
    show V c main_v21 (((cfg1.win 1).blk t).view.emb (ix2 (brow j) (0 : Fin 1))) = V c main_v21 (ix2 (row (((cfg1.win 6).blk t).view.emb j)) (0 : Fin 1))
    refine congrArg (V c main_v21) (funext fun a => Fin.ext ?_)
    match a with
    | ⟨0, _⟩ => show win1_1.index t (0 : Fin 2) * 4000 + 1 * (j 0).val = win1_6.index t (0 : Fin 2) * 4000 + 1 * (j 0).val; omega
    | ⟨1, _⟩ => show win1_1.index t (1 : Fin 2) * 1 + 1 * 0 = 0; omega
  have r2 : ∀ k : Fin 64, iblk1 V c 2 t (ix2 (brow j) k) = V c main_arg0 (ix2 (row (((cfg1.win 6).blk t).view.emb j)) k) := fun k => by
    show V c main_arg0 (((cfg1.win 2).blk t).view.emb (ix2 (brow j) k)) = V c main_arg0 (ix2 (row (((cfg1.win 6).blk t).view.emb j)) k)
    refine congrArg (V c main_arg0) (funext fun a => Fin.ext ?_)
    match a with
    | ⟨0, _⟩ => show win1_2.index t (0 : Fin 2) * 4000 + 1 * (j 0).val = win1_6.index t (0 : Fin 2) * 4000 + 1 * (j 0).val; omega
    | ⟨1, _⟩ => show win1_2.index t (1 : Fin 2) * 64 + 1 * k.val = k.val; omega
  have r3 : ∀ k : Fin 64, iblk1 V c 3 t (ix2 k (bcol j)) = V c main_arg5 (ix2 k (col (((cfg1.win 6).blk t).view.emb j))) := fun k => by
    show V c main_arg5 (((cfg1.win 3).blk t).view.emb (ix2 k (bcol j))) = V c main_arg5 (ix2 k (col (((cfg1.win 6).blk t).view.emb j)))
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_6.index t (1 : Fin 2) * 64 + 1 * (j 1).val; omega
  have r4 : ∀ k : Fin 64, iblk1 V c 4 t (ix2 k (bcol j)) = V c main_arg6 (ix2 k (col (((cfg1.win 6).blk t).view.emb j))) := fun k => by
    show V c main_arg6 (((cfg1.win 4).blk t).view.emb (ix2 k (bcol j))) = V c main_arg6 (ix2 k (col (((cfg1.win 6).blk t).view.emb j)))
    refine congrArg (V c main_arg6) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_6.index t (1 : Fin 2) * 64 + 1 * (j 1).val; omega
  have r5 : iblk1 V c 5 t (ix2 (0 : Fin 1) (bcol j)) = V c main_v58 (ix2 (0 : Fin 1) (col (((cfg1.win 6).blk t).view.emb j))) := by
    show V c main_v58 (((cfg1.win 5).blk t).view.emb (ix2 (0 : Fin 1) (bcol j))) = V c main_v58 (ix2 (0 : Fin 1) (col (((cfg1.win 6).blk t).view.emb j)))
    refine congrArg (V c main_v58) (funext fun a => Fin.ext ?_)
    match a with
    | ⟨0, _⟩ => show win1_5.index t (0 : Fin 2) * 1 + 1 * 0 = 0; omega
    | ⟨1, _⟩ => show win1_5.index t (1 : Fin 2) * 64 + 1 * (j 1).val = win1_6.index t (1 : Fin 2) * 64 + 1 * (j 1).val; omega
  unfold G
  simp only [r0, r1, r2, r3, r4, r5]

/-- An index of the array is in point `t`'s block iff each coordinate is in the block's range on its axis. -/
theorem mem_blk (t : Fin cfg1.N) (i : S200000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v59).slice (win1_6.rect t)).set ↔ _
  rw [View.set_slice_whole, Rect.mem_set_unit]
  exact Iff.rfl

/-- Every index of the array lies in some point's block: row `r` in block `r / 4000`. -/
theorem cover (i : S200000x64.Idx) : ∃ t : Fin cfg1.N, (cfg1.win 6).flush t = true ∧ i ∈ ((cfg1.win 6).blk t).view.set := by
  have hi0 : (i 0).val < 200000 := idx2_lt0 i
  have hi1 : (i 1).val < 64 := idx2_lt1 i
  have hN : grid1.N = 50 := N_1
  have ht : (i 0).val / 4000 < cfg1.N := by show (i 0).val / 4000 < grid1.N; rw [hN]; omega
  refine ⟨⟨(i 0).val / 4000, ht⟩, flush1_6 _, ?_⟩
  rw [mem_blk]
  obtain ⟨-, -, -, -, -, -, -, -, -, -, -, -, e60, e61⟩ := idx_facts ⟨(i 0).val / 4000, ht⟩
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, ht⟩ (1 : Fin 2) * 64 ≤ (i 1).val ∧ (i 1).val < win1_6.index ⟨(i 0).val / 4000, ht⟩ (1 : Fin 2) * 64 + 64
    rw [e61]; omega

/-- The array after the region: `G` of the arrays as the region finds them. -/
theorem final (hpay : PayloadReads) (c : Dev nD) :
    (dat1 (F := Ideal) V c).arrAt 6 cfg1.N = G (V c main_v57) (V c main_v21) (V c main_arg0) (V c main_arg5) (V c main_arg6) (V c main_v58) :=
  (dat1 (F := Ideal) V c).arrAt_eq_of_cover 6 (G (V c main_v57) (V c main_v21) (V c main_arg0) (V c main_arg5) (V c main_arg6) (V c main_v58)) (fun t _ => flushed_eq V hpay c t) cover

end Cert.KernelIdeal.Layer1

end
-- ==== Proof.Layer2.lean ====
/-
  The third tiled region's output array as ONE function of the arrays it reads.

  The region walks 25 row blocks of 4000 rows.  At block `t` it reads rows `4000·t … 4000·t + 3999` of the neighbour
  sums, of the in-degree column and of the destination features, the two whole 64×64 weight matrices and the bias
  row, and writes the same rows of the result.  Entry `(p, q)` of a block depends only on row `p` of the three
  row-blocked inputs and on column `q` of the weights and the bias, so the 25 blocks are restrictions of one
  whole-array function `G`: row `r`, column `q` of the result is the layer's entry built from row `r` of the inputs.
  The blocks tile the array (row `r` lies in block `r / 4000`), hence the array ends holding `G` everywhere.
-/
import proofs.«116008_j56092272886142_2_alg».proof.Proof.Gen.KernelIdeal.Frame
import proofs.«116008_j56092272886142_2_alg».proof.Proof.Spec
import Idealize.ShloMosaic.Lib.ValueIdx
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of an array index, as a number below the row count. -/
abbrev row (i : S100000x64.Idx) : Fin 100000 := ⟨(i 0).val, idx2_lt0 i⟩
/-- Column `q` of an array index. -/
abbrev col (i : S100000x64.Idx) : Fin 64 := ⟨(i 1).val, idx2_lt1 i⟩
/-- Row and column of an index inside one 4000 × 64 block. -/
abbrev brow (j : S4000x64.Idx) : Fin 4000 := ⟨(j 0).val, idx2_lt0 j⟩
abbrev bcol (j : S4000x64.Idx) : Fin 64 := ⟨(j 1).val, idx2_lt1 j⟩

/-- The layer over whole arrays: entry `(r, q)` from row `r` of the sums, the in-degree and the features, and
    column `q` of the two weight matrices and the bias. -/
def G (A0 : S100000x64.Idx → Elt Ideal .f32) (A1 : S100000x1.Idx → Elt Ideal .f32) (A2 : S100000x64.Idx → Elt Ideal .f32)
    (A3 A4 : S64x64.Idx → Elt Ideal .f32) (A5 : S1x64.Idx → Elt Ideal .f32) : S100000x64.Idx → Elt Ideal .f32 :=
  fun i => Cert.Spec.biasLast (fun k => A0 (ix2 (row i) k)) (A1 (ix2 (row i) (0 : Fin 1))) (fun k => A2 (ix2 (row i) k))
      (fun k => A3 (ix2 k (col i))) (fun k => A4 (ix2 k (col i))) (A5 (ix2 (0 : Fin 1) (col i)))

/-- The body's stored value read at `(p, q)` of a block, over any six loaded vectors. -/
abbrev PayloadReads : Prop :=
  ∀ (v0 : Vec Ideal S4000x1 .f32) (v4 v9 : Vec Ideal S4000x64 .f32) (v11 v13 : Vec Ideal S64x64 .f32) (v18 : Vec Ideal S1x64 .f32)
    (p : Fin 4000) (q : Fin 64),
    k2_pay1 (F := Ideal) v0 v4 v9 v11 v13 v18 (ix2 p q)
      = Cert.Spec.biasLast (fun k => v4 (ix2 p k)) (v0 (ix2 p (0 : Fin 1))) (fun k => v9 (ix2 p k))
      (fun k => v11 (ix2 k q)) (fun k => v13 (ix2 k q)) (v18 (ix2 (0 : Fin 1) q))

/-- The stored value at any index `j` of a block. -/
theorem point_eq (hpay : PayloadReads) (x0 : Vec Ideal S4000x64 .f32) (x1 : Vec Ideal S4000x1 .f32) (x2 : Vec Ideal S4000x64 .f32)
    (x3 x4 : Vec Ideal S64x64 .f32) (x5 : Vec Ideal S1x64 .f32) (j : S4000x64.Idx) :
    k2_pay1 (F := Ideal) x1 x0 x2 x3 x4 x5 j
      = Cert.Spec.biasLast (fun k => x0 (ix2 (brow j) k)) (x1 (ix2 (brow j) (0 : Fin 1))) (fun k => x2 (ix2 (brow j) k))
      (fun k => x3 (ix2 k (bcol j))) (fun k => x4 (ix2 k (bcol j))) (x5 (ix2 (0 : Fin 1) (bcol j))) := by
  have h := hpay x1 x0 x2 x3 x4 x5 (brow j) (bcol j)
  have e : ix2 (brow j) (bcol j) = j := by
    funext a; match a with | ⟨0, _⟩ => rfl | ⟨1, _⟩ => rfl
  rw [e] at h
  exact h

/-- The printed index maps, decided over the 25 points: the three row-blocked inputs and the output sit at row
    block `t`, column block 0; the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of `G` of the arrays as the region finds them. -/
theorem flushed_eq (hpay : PayloadReads) (c : Dev nD) (t : Fin cfg2.N) :
    (dat2 (F := Ideal) V c).flushed 6 t = ((cfg2.win 6).blk t).view.read (Elt Ideal)
      (G (V c main_v76) (V c main_v10) (V c main_v40) (V c main_arg8) (V c main_arg9) (V c main_v77)) := by
  show (cfg2.win 6).cut (grid2.coords t) ((dat2 V c).after 6 t) = _
  rw [after2_6]
  unfold out2_6
  rw [View.canon_unit_zero hz]
  simp only [View.ld_unit_zero (S := S4000x64) hz, View.ld_unit_zero (S := S4000x1) hz, View.ld_unit_zero (S := S64x64) hz,
    View.ld_unit_zero (S := S1x64) hz]
  funext j
  show k2_pay1 (F := Ideal) (iblk2 V c 1 t) (iblk2 V c 0 t) (iblk2 V c 2 t) (iblk2 V c 3 t) (iblk2 V c 4 t) (iblk2 V c 5 t) j
    = G (V c main_v76) (V c main_v10) (V c main_v40) (V c main_arg8) (V c main_arg9) (V c main_v77) (((cfg2.win 6).blk t).view.emb j)
  refine (point_eq hpay (iblk2 V c 0 t) (iblk2 V c 1 t) (iblk2 V c 2 t) (iblk2 V c 3 t) (iblk2 V c 4 t) (iblk2 V c 5 t) j).trans ?_
  obtain ⟨e00, e01, e10, e11, e20, e21, e30, e31, e40, e41, e50, e51, e60, e61⟩ := idx_facts t
  have hj0 : (j 0).val < 4000 := (j 0).isLt
  have hj1 : (j 1).val < 64 := (j 1).isLt
  have r0 : ∀ k : Fin 64, iblk2 V c 0 t (ix2 (brow j) k) = V c main_v76 (ix2 (row (((cfg2.win 6).blk t).view.emb j)) k) := fun k => by
    show V c main_v76 (((cfg2.win 0).blk t).view.emb (ix2 (brow j) k)) = V c main_v76 (ix2 (row (((cfg2.win 6).blk t).view.emb j)) k)
    refine congrArg (V c main_v76) (funext fun a => Fin.ext ?_)
    match a with
    | ⟨0, _⟩ => show win2_0.index t (0 : Fin 2) * 4000 + 1 * (j 0).val = win2_6.index t (0 : Fin 2) * 4000 + 1 * (j 0).val; omega
    | ⟨1, _⟩ => show win2_0.index t (1 : Fin 2) * 64 + 1 * k.val = k.val; omega
  have r1 : iblk2 V c 1 t (ix2 (brow j) (0 : Fin 1)) = V c main_v10 (ix2 (row (((cfg2.win 6).blk t).view.emb j)) (0 : Fin 1)) := by
    show V c main_v10 (((cfg2.win 1).blk t).view.emb (ix2 (brow j) (0 : Fin 1))) = V c main_v10 (ix2 (row (((cfg2.win 6).blk t).view.emb j)) (0 : Fin 1))
    refine congrArg (V c main_v10) (funext fun a => Fin.ext ?_)
    match a with
    | ⟨0, _⟩ => show win2_1.index t (0 : Fin 2) * 4000 + 1 * (j 0).val = win2_6.index t (0 : Fin 2) * 4000 + 1 * (j 0).val; omega
    | ⟨1, _⟩ => show win2_1.index t (1 : Fin 2) * 1 + 1 * 0 = 0; omega
  have r2 : ∀ k : Fin 64, iblk2 V c 2 t (ix2 (brow j) k) = V c main_v40 (ix2 (row (((cfg2.win 6).blk t).view.emb j)) k) := fun k => by
    show V c main_v40 (((cfg2.win 2).blk t).view.emb (ix2 (brow j) k)) = V c main_v40 (ix2 (row (((cfg2.win 6).blk t).view.emb j)) k)
    refine congrArg (V c main_v40) (funext fun a => Fin.ext ?_)
    match a with
    | ⟨0, _⟩ => show win2_2.index t (0 : Fin 2) * 4000 + 1 * (j 0).val = win2_6.index t (0 : Fin 2) * 4000 + 1 * (j 0).val; omega
    | ⟨1, _⟩ => show win2_2.index t (1 : Fin 2) * 64 + 1 * k.val = k.val; omega
  have r3 : ∀ k : Fin 64, iblk2 V c 3 t (ix2 k (bcol j)) = V c main_arg8 (ix2 k (col (((cfg2.win 6).blk t).view.emb j))) := fun k => by
    show V c main_arg8 (((cfg2.win 3).blk t).view.emb (ix2 k (bcol j))) = V c main_arg8 (ix2 k (col (((cfg2.win 6).blk t).view.emb j)))
    refine congrArg (V c main_arg8) (funext fun a => Fin.ext ?_)
    match a with
    | ⟨0, _⟩ => show win2_3.index t (0 : Fin 2) * 64 + 1 * k.val = k.val; omega
    | ⟨1, _⟩ => show win2_3.index t (1 : Fin 2) * 64 + 1 * (j 1).val = win2_6.index t (1 : Fin 2) * 64 + 1 * (j 1).val; omega
  have r4 : ∀ k : Fin 64, iblk2 V c 4 t (ix2 k (bcol j)) = V c main_arg9 (ix2 k (col (((cfg2.win 6).blk t).view.emb j))) := fun k => by
    show V c main_arg9 (((cfg2.win 4).blk t).view.emb (ix2 k (bcol j))) = V c main_arg9 (ix2 k (col (((cfg2.win 6).blk t).view.emb j)))
    refine congrArg (V c main_arg9) (funext fun a => Fin.ext ?_)
    match a with
    | ⟨0, _⟩ => show win2_4.index t (0 : Fin 2) * 64 + 1 * k.val = k.val; omega
    | ⟨1, _⟩ => show win2_4.index t (1 : Fin 2) * 64 + 1 * (j 1).val = win2_6.index t (1 : Fin 2) * 64 + 1 * (j 1).val; omega
  have r5 : iblk2 V c 5 t (ix2 (0 : Fin 1) (bcol j)) = V c main_v77 (ix2 (0 : Fin 1) (col (((cfg2.win 6).blk t).view.emb j))) := by
    show V c main_v77 (((cfg2.win 5).blk t).view.emb (ix2 (0 : Fin 1) (bcol j))) = V c main_v77 (ix2 (0 : Fin 1) (col (((cfg2.win 6).blk t).view.emb j)))
    refine congrArg (V c main_v77) (funext fun a => Fin.ext ?_)
    match a with
    | ⟨0, _⟩ => show win2_5.index t (0 : Fin 2) * 1 + 1 * 0 = 0; omega
    | ⟨1, _⟩ => show win2_5.index t (1 : Fin 2) * 64 + 1 * (j 1).val = win2_6.index t (1 : Fin 2) * 64 + 1 * (j 1).val; omega
  unfold G
  simp only [r0, r1, r2, r3, r4, r5]

/-- An index of the array is in point `t`'s block iff each coordinate is in the block's range on its axis. -/
theorem mem_blk (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v78).slice (win2_6.rect t)).set ↔ _
  rw [View.set_slice_whole, Rect.mem_set_unit]
  exact Iff.rfl

/-- Every index of the array lies in some point's block: row `r` in block `r / 4000`. -/
theorem cover (i : S100000x64.Idx) : ∃ t : Fin cfg2.N, (cfg2.win 6).flush t = true ∧ i ∈ ((cfg2.win 6).blk t).view.set := by
  have hi0 : (i 0).val < 100000 := idx2_lt0 i
  have hi1 : (i 1).val < 64 := idx2_lt1 i
  have hN : grid2.N = 25 := N_2
  have ht : (i 0).val / 4000 < cfg2.N := by show (i 0).val / 4000 < grid2.N; rw [hN]; omega
  refine ⟨⟨(i 0).val / 4000, ht⟩, flush2_6 _, ?_⟩
  rw [mem_blk]
  obtain ⟨-, -, -, -, -, -, -, -, -, -, -, -, e60, e61⟩ := idx_facts ⟨(i 0).val / 4000, ht⟩
  intro a
  match a with
  | ⟨0, _⟩ =>
    show win2_6.index ⟨(i 0).val / 4000, ht⟩ (0 : Fin 2) * 4000 ≤ (i 0).val ∧ (i 0).val < win2_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win2_6.index ⟨(i 0).val / 4000, ht⟩ (1 : Fin 2) * 64 ≤ (i 1).val ∧ (i 1).val < win2_6.index ⟨(i 0).val / 4000, ht⟩ (1 : Fin 2) * 64 + 64
    rw [e61]; omega

/-- The array after the region: `G` of the arrays as the region finds them. -/
theorem final (hpay : PayloadReads) (c : Dev nD) :
    (dat2 (F := Ideal) V c).arrAt 6 cfg2.N = G (V c main_v76) (V c main_v10) (V c main_v40) (V c main_arg8) (V c main_arg9) (V c main_v77) :=
  (dat2 (F := Ideal) V c).arrAt_eq_of_cover 6 (G (V c main_v76) (V c main_v10) (V c main_v40) (V c main_arg8) (V c main_arg9) (V c main_v77)) (fun t _ => flushed_eq V hpay c t) cover

end Cert.KernelIdeal.Layer2

end
-- ==== Proof.Layer3.lean ====
/-
  The fourth tiled region's output array as ONE function of the arrays it reads.

  The region walks 50 row blocks of 4000 rows.  At block `t` it reads rows `4000·t … 4000·t + 3999` of the neighbour
  sums, of the in-degree column and of the destination features, the two whole 64×64 weight matrices and the bias
  row, and writes the same rows of the result.  Entry `(p, q)` of a block depends only on row `p` of the three
  row-blocked inputs and on column `q` of the weights and the bias, so the 50 blocks are restrictions of one
  whole-array function `G`: row `r`, column `q` of the result is the layer's entry built from row `r` of the inputs.
  The blocks tile the array (row `r` lies in block `r / 4000`), hence the array ends holding `G` everywhere.
-/
import proofs.«116008_j56092272886142_2_alg».proof.Proof.Gen.KernelIdeal.Frame
import proofs.«116008_j56092272886142_2_alg».proof.Proof.Spec
import Idealize.ShloMosaic.Lib.ValueIdx
import Idealize.ShloMosaic.Lib.Pipeline.Value

set_option maxRecDepth 16384

noncomputable section

namespace Cert.KernelIdeal.Layer3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of an array index, as a number below the row count. -/
abbrev row (i : S200000x64.Idx) : Fin 200000 := ⟨(i 0).val, idx2_lt0 i⟩
/-- Column `q` of an array index. -/
abbrev col (i : S200000x64.Idx) : Fin 64 := ⟨(i 1).val, idx2_lt1 i⟩
/-- Row and column of an index inside one 4000 × 64 block. -/
abbrev brow (j : S4000x64.Idx) : Fin 4000 := ⟨(j 0).val, idx2_lt0 j⟩
abbrev bcol (j : S4000x64.Idx) : Fin 64 := ⟨(j 1).val, idx2_lt1 j⟩

/-- The layer over whole arrays: entry `(r, q)` from row `r` of the sums, the in-degree and the features, and
    column `q` of the two weight matrices and the bias. -/
def G (A0 : S200000x64.Idx → Elt Ideal .f32) (A1 : S200000x1.Idx → Elt Ideal .f32) (A2 : S200000x64.Idx → Elt Ideal .f32)
    (A3 A4 : S64x64.Idx → Elt Ideal .f32) (A5 : S1x64.Idx → Elt Ideal .f32) : S200000x64.Idx → Elt Ideal .f32 :=
  fun i => Cert.Spec.biasLast (fun k => A0 (ix2 (row i) k)) (A1 (ix2 (row i) (0 : Fin 1))) (fun k => A2 (ix2 (row i) k))
      (fun k => A3 (ix2 k (col i))) (fun k => A4 (ix2 k (col i))) (A5 (ix2 (0 : Fin 1) (col i)))

/-- The body's stored value read at `(p, q)` of a block, over any six loaded vectors. -/
abbrev PayloadReads : Prop :=
  ∀ (v0 : Vec Ideal S4000x1 .f32) (v4 v9 : Vec Ideal S4000x64 .f32) (v11 v13 : Vec Ideal S64x64 .f32) (v18 : Vec Ideal S1x64 .f32)
    (p : Fin 4000) (q : Fin 64),
    k3_pay1 (F := Ideal) v0 v4 v9 v11 v13 v18 (ix2 p q)
      = Cert.Spec.biasLast (fun k => v4 (ix2 p k)) (v0 (ix2 p (0 : Fin 1))) (fun k => v9 (ix2 p k))
      (fun k => v11 (ix2 k q)) (fun k => v13 (ix2 k q)) (v18 (ix2 (0 : Fin 1) q))

/-- The stored value at any index `j` of a block. -/
theorem point_eq (hpay : PayloadReads) (x0 : Vec Ideal S4000x64 .f32) (x1 : Vec Ideal S4000x1 .f32) (x2 : Vec Ideal S4000x64 .f32)
    (x3 x4 : Vec Ideal S64x64 .f32) (x5 : Vec Ideal S1x64 .f32) (j : S4000x64.Idx) :
    k3_pay1 (F := Ideal) x1 x0 x2 x3 x4 x5 j
      = Cert.Spec.biasLast (fun k => x0 (ix2 (brow j) k)) (x1 (ix2 (brow j) (0 : Fin 1))) (fun k => x2 (ix2 (brow j) k))
      (fun k => x3 (ix2 k (bcol j))) (fun k => x4 (ix2 k (bcol j))) (x5 (ix2 (0 : Fin 1) (bcol j))) := by
  have h := hpay x1 x0 x2 x3 x4 x5 (brow j) (bcol j)
  have e : ix2 (brow j) (bcol j) = j := by
    funext a; match a with | ⟨0, _⟩ => rfl | ⟨1, _⟩ => rfl
  rw [e] at h
  exact h

/-- The printed index maps, decided over the 50 points: the three row-blocked inputs and the output sit at row
    block `t`, column block 0; the weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of `G` of the arrays as the region finds them. -/
theorem flushed_eq (hpay : PayloadReads) (c : Dev nD) (t : Fin cfg3.N) :
    (dat3 (F := Ideal) V c).flushed 6 t = ((cfg3.win 6).blk t).view.read (Elt Ideal)
      (G (V c main_v95) (V c main_v21) (V c main_v59) (V c main_arg11) (V c main_arg12) (V c main_v96)) := by
  show (cfg3.win 6).cut (grid3.coords t) ((dat3 V c).after 6 t) = _
  rw [after3_6]
  unfold out3_6
  rw [View.canon_unit_zero hz]
  simp only [View.ld_unit_zero (S := S4000x64) hz, View.ld_unit_zero (S := S4000x1) hz, View.ld_unit_zero (S := S64x64) hz,
    View.ld_unit_zero (S := S1x64) hz]
  funext j
  show k3_pay1 (F := Ideal) (iblk3 V c 1 t) (iblk3 V c 0 t) (iblk3 V c 2 t) (iblk3 V c 3 t) (iblk3 V c 4 t) (iblk3 V c 5 t) j
    = G (V c main_v95) (V c main_v21) (V c main_v59) (V c main_arg11) (V c main_arg12) (V c main_v96) (((cfg3.win 6).blk t).view.emb j)
  refine (point_eq hpay (iblk3 V c 0 t) (iblk3 V c 1 t) (iblk3 V c 2 t) (iblk3 V c 3 t) (iblk3 V c 4 t) (iblk3 V c 5 t) j).trans ?_
  obtain ⟨e00, e01, e10, e11, e20, e21, e30, e31, e40, e41, e50, e51, e60, e61⟩ := idx_facts t
  have hj0 : (j 0).val < 4000 := (j 0).isLt
  have hj1 : (j 1).val < 64 := (j 1).isLt
  have r0 : ∀ k : Fin 64, iblk3 V c 0 t (ix2 (brow j) k) = V c main_v95 (ix2 (row (((cfg3.win 6).blk t).view.emb j)) k) := fun k => by
    show V c main_v95 (((cfg3.win 0).blk t).view.emb (ix2 (brow j) k)) = V c main_v95 (ix2 (row (((cfg3.win 6).blk t).view.emb j)) k)
    refine congrArg (V c main_v95) (funext fun a => Fin.ext ?_)
    match a with
    | ⟨0, _⟩ => show win3_0.index t (0 : Fin 2) * 4000 + 1 * (j 0).val = win3_6.index t (0 : Fin 2) * 4000 + 1 * (j 0).val; omega
    | ⟨1, _⟩ => show win3_0.index t (1 : Fin 2) * 64 + 1 * k.val = k.val; omega
  have r1 : iblk3 V c 1 t (ix2 (brow j) (0 : Fin 1)) = V c main_v21 (ix2 (row (((cfg3.win 6).blk t).view.emb j)) (0 : Fin 1)) := by
    show V c main_v21 (((cfg3.win 1).blk t).view.emb (ix2 (brow j) (0 : Fin 1))) = V c main_v21 (ix2 (row (((cfg3.win 6).blk t).view.emb j)) (0 : Fin 1))
    refine congrArg (V c main_v21) (funext fun a => Fin.ext ?_)
    match a with
    | ⟨0, _⟩ => show win3_1.index t (0 : Fin 2) * 4000 + 1 * (j 0).val = win3_6.index t (0 : Fin 2) * 4000 + 1 * (j 0).val; omega
    | ⟨1, _⟩ => show win3_1.index t (1 : Fin 2) * 1 + 1 * 0 = 0; omega
  have r2 : ∀ k : Fin 64, iblk3 V c 2 t (ix2 (brow j) k) = V c main_v59 (ix2 (row (((cfg3.win 6).blk t).view.emb j)) k) := fun k => by
    show V c main_v59 (((cfg3.win 2).blk t).view.emb (ix2 (brow j) k)) = V c main_v59 (ix2 (row (((cfg3.win 6).blk t).view.emb j)) k)
    refine congrArg (V c main_v59) (funext fun a => Fin.ext ?_)
    match a with
    | ⟨0, _⟩ => show win3_2.index t (0 : Fin 2) * 4000 + 1 * (j 0).val = win3_6.index t (0 : Fin 2) * 4000 + 1 * (j 0).val; omega
    | ⟨1, _⟩ => show win3_2.index t (1 : Fin 2) * 64 + 1 * k.val = k.val; omega
  have r3 : ∀ k : Fin 64, iblk3 V c 3 t (ix2 k (bcol j)) = V c main_arg11 (ix2 k (col (((cfg3.win 6).blk t).view.emb j))) := fun k => by
    show V c main_arg11 (((cfg3.win 3).blk t).view.emb (ix2 k (bcol j))) = V c main_arg11 (ix2 k (col (((cfg3.win 6).blk t).view.emb j)))
    refine congrArg (V c main_arg11) (funext fun a => Fin.ext ?_)
    match a with
    | ⟨0, _⟩ => show win3_3.index t (0 : Fin 2) * 64 + 1 * k.val = k.val; omega
    | ⟨1, _⟩ => show win3_3.index t (1 : Fin 2) * 64 + 1 * (j 1).val = win3_6.index t (1 : Fin 2) * 64 + 1 * (j 1).val; omega
  have r4 : ∀ k : Fin 64, iblk3 V c 4 t (ix2 k (bcol j)) = V c main_arg12 (ix2 k (col (((cfg3.win 6).blk t).view.emb j))) := fun k => by
    show V c main_arg12 (((cfg3.win 4).blk t).view.emb (ix2 k (bcol j))) = V c main_arg12 (ix2 k (col (((cfg3.win 6).blk t).view.emb j)))
    refine congrArg (V c main_arg12) (funext fun a => Fin.ext ?_)
    match a with
    | ⟨0, _⟩ => show win3_4.index t (0 : Fin 2) * 64 + 1 * k.val = k.val; omega
    | ⟨1, _⟩ => show win3_4.index t (1 : Fin 2) * 64 + 1 * (j 1).val = win3_6.index t (1 : Fin 2) * 64 + 1 * (j 1).val; omega
  have r5 : iblk3 V c 5 t (ix2 (0 : Fin 1) (bcol j)) = V c main_v96 (ix2 (0 : Fin 1) (col (((cfg3.win 6).blk t).view.emb j))) := by
    show V c main_v96 (((cfg3.win 5).blk t).view.emb (ix2 (0 : Fin 1) (bcol j))) = V c main_v96 (ix2 (0 : Fin 1) (col (((cfg3.win 6).blk t).view.emb j)))
    refine congrArg (V c main_v96) (funext fun a => Fin.ext ?_)
    match a with
    | ⟨0, _⟩ => show win3_5.index t (0 : Fin 2) * 1 + 1 * 0 = 0; omega
    | ⟨1, _⟩ => show win3_5.index t (1 : Fin 2) * 64 + 1 * (j 1).val = win3_6.index t (1 : Fin 2) * 64 + 1 * (j 1).val; omega
  unfold G
  simp only [r0, r1, r2, r3, r4, r5]

/-- An index of the array is in point `t`'s block iff each coordinate is in the block's range on its axis. -/
theorem mem_blk (t : Fin cfg3.N) (i : S200000x64.Idx) :
    i ∈ ((cfg3.win 6).blk t).view.set ↔ ∀ a : Fin 2, win3_6.index t a * S4000x64.size a ≤ (i a).val ∧ (i a).val < win3_6.index t a * S4000x64.size a + S4000x64.size a := by
  show i ∈ ((View.whole main_v97).slice (win3_6.rect t)).set ↔ _
  rw [View.set_slice_whole, Rect.mem_set_unit]
  exact Iff.rfl

/-- Every index of the array lies in some point's block: row `r` in block `r / 4000`. -/
theorem cover (i : S200000x64.Idx) : ∃ t : Fin cfg3.N, (cfg3.win 6).flush t = true ∧ i ∈ ((cfg3.win 6).blk t).view.set := by
  have hi0 : (i 0).val < 200000 := idx2_lt0 i
  have hi1 : (i 1).val < 64 := idx2_lt1 i
  have hN : grid3.N = 50 := N_3
  have ht : (i 0).val / 4000 < cfg3.N := by show (i 0).val / 4000 < grid3.N; rw [hN]; omega
  refine ⟨⟨(i 0).val / 4000, ht⟩, flush3_6 _, ?_⟩
  rw [mem_blk]
  obtain ⟨-, -, -, -, -, -, -, -, -, -, -, -, e60, e61⟩ := idx_facts ⟨(i 0).val / 4000, ht⟩
  intro a
  match a with
  | ⟨0, _⟩ =>
    show win3_6.index ⟨(i 0).val / 4000, ht⟩ (0 : Fin 2) * 4000 ≤ (i 0).val ∧ (i 0).val < win3_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win3_6.index ⟨(i 0).val / 4000, ht⟩ (1 : Fin 2) * 64 ≤ (i 1).val ∧ (i 1).val < win3_6.index ⟨(i 0).val / 4000, ht⟩ (1 : Fin 2) * 64 + 64
    rw [e61]; omega

/-- The array after the region: `G` of the arrays as the region finds them. -/
theorem final (hpay : PayloadReads) (c : Dev nD) :
    (dat3 (F := Ideal) V c).arrAt 6 cfg3.N = G (V c main_v95) (V c main_v21) (V c main_v59) (V c main_arg11) (V c main_arg12) (V c main_v96) :=
  (dat3 (F := Ideal) V c).arrAt_eq_of_cover 6 (G (V c main_v95) (V c main_v21) (V c main_v59) (V c main_arg11) (V c main_arg12) (V c main_v96)) (fun t _ => flushed_eq V hpay c t) cover

end Cert.KernelIdeal.Layer3

end
-- ==== Proof.PayloadAt.lean ====
/-
  The four kernel bodies' stored value, read at one index over the extended reals.

  Each body stores one block `[4000, 64]`.  Its entry at row `p`, column `q` is built from the row's in-degree
  `cnt = v0 (p, 0)`, the row's neighbour sum `s k = v4 (p, k)`, the row's own features `x k = v9 (p, k)`, the two
  weight matrices' column `q` and the bias row's entry `q`:

      ∑ₖ (s k / max cnt 1) · Wl (k, q)  +  ∑ₖ x k · Wr (k, q)  +  b q,

  in the first two bodies followed by a maximum with zero.  Over the extended reals the narrowing format changes are
  the identity, the pointwise operations act entrywise, a shape cast to the same shape is the identity, the column
  `[4000, 1]` broadcast along the rows reads its row's one entry, the row `[1, 64]` broadcast down the rows reads its
  column's entry, and a matrix product into a zero accumulator is the plain sum over the contracted axis.  Pushing the
  index `(p, q)` through these gives the specification's entry with the bias added last.
-/
import proofs.«116008_j56092272886142_2_alg».proof.Proof.Spec
import proofs.«116008_j56092272886142_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PayloadAt

open Idealize.ShloMosaic ValueIdx Cert.KernelIdeal

/-! ## A column broadcast along the rows -/

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The operand indices of the matrix product

The product contracts the left operand's axis 1 with the right operand's axis 0; its output index `(p, q)` and a
contraction index `c` read the left operand at `(p, c)` and the right operand at `(c, q)`. -/

theorem lhs_coord0 (i : S4000x64.Idx) (c : dot_S4000x64_S64x64_S4000x64_1_0_0_1_n_n.contr.Idx) :
    (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem lhs_coord1 (i : S4000x64.Idx) (c : dot_S4000x64_S64x64_S4000x64_1_0_0_1_n_n.contr.Idx) :
    (dot_S4000x64_S64x64_S4000x64_1_0_0_1_n_n.lhsIdx i c 1).val = (c ⟨0, by decide⟩).val :=
  dot_S4000x64_S64x64_S4000x64_1_0_0_1_n_n.lhsIdx_val_of_single rfl i c
theorem rhs_coord0 (i : S4000x64.Idx) (c : dot_S4000x64_S64x64_S4000x64_1_0_0_1_n_n.contr.Idx) :
    (dot_S4000x64_S64x64_S4000x64_1_0_0_1_n_n.rhsIdx i c 0).val = (c ⟨0, by decide⟩).val :=
  dot_S4000x64_S64x64_S4000x64_1_0_0_1_n_n.rhsIdx_val_of_single rfl i c
theorem rhs_coord1 (i : S4000x64.Idx) (c : dot_S4000x64_S64x64_S4000x64_1_0_0_1_n_n.contr.Idx) :
    (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- The matrix product into a zero accumulator, read at `(p, q)`: the sum over the contracted axis. -/
theorem matmul_zero_apply {φ₁ φ₂ : FTy} (lhs : FVec Ideal S4000x64 φ₁) (rhs : FVec Ideal S64x64 φ₂) (p : Fin 4000) (q : Fin 64) :
    FloatOps.matmul dot_S4000x64_S64x64_S4000x64_1_0_0_1_n_n none lhs rhs (constant (F := Ideal) S4000x64 .f32 0x00000000#32) (ix2 p q)
      = ∑ k : Fin 64, lhs (ix2 p k) * rhs (ix2 k q) := by
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_coord0 _ _
    | ⟨1, _⟩ => exact (lhs_coord1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_coord0 _ _).trans hk
    | ⟨1, _⟩ => exact rhs_coord1 _ _)
  rw [el, er]

/-! ## The four bodies -/

/-- The stored value of this body at `(p, q)`: the specification's entry with the bias added last, then the maximum with zero. -/
theorem k0_pay1_apply (v0 : Vec Ideal S4000x1 .f32) (v4 v9 : Vec Ideal S4000x64 .f32) (v11 v13 : Vec Ideal S64x64 .f32)
    (v18 : Vec Ideal S1x64 .f32) (p : Fin 4000) (q : Fin 64) :
    Cert.KernelIdeal.Gen.k0_pay1 (F := Ideal) v0 v4 v9 v11 v13 v18 (ix2 p q)
      = max (Cert.Spec.biasLast (fun k => v4 (ix2 p k)) (v0 (ix2 p (0 : Fin 1))) (fun k => v9 (ix2 p k)) (fun k => v11 (ix2 k q))
          (fun k => v13 (ix2 k q)) (v18 (ix2 (0 : Fin 1) q))) Cert.Spec.zero := by
  unfold Cert.KernelIdeal.Gen.k0_pay1
  simp only [shapeCast_self]
  simp only [maximumf_apply, addf_apply, broadcast_apply, matmul_zero_apply, broadcastTo_1b_ab_apply, truncf_apply,
    divf_apply, broadcastTo_a1_ab_apply]
  rfl

/-- The stored value of this body at `(p, q)`: the specification's entry with the bias added last, then the maximum with zero. -/
theorem k1_pay1_apply (v0 : Vec Ideal S4000x1 .f32) (v4 v9 : Vec Ideal S4000x64 .f32) (v11 v13 : Vec Ideal S64x64 .f32)
    (v18 : Vec Ideal S1x64 .f32) (p : Fin 4000) (q : Fin 64) :
    Cert.KernelIdeal.Gen.k1_pay1 (F := Ideal) v0 v4 v9 v11 v13 v18 (ix2 p q)
      = max (Cert.Spec.biasLast (fun k => v4 (ix2 p k)) (v0 (ix2 p (0 : Fin 1))) (fun k => v9 (ix2 p k)) (fun k => v11 (ix2 k q))
          (fun k => v13 (ix2 k q)) (v18 (ix2 (0 : Fin 1) q))) Cert.Spec.zero := by
  unfold Cert.KernelIdeal.Gen.k1_pay1
  simp only [shapeCast_self]
  simp only [maximumf_apply, addf_apply, broadcast_apply, matmul_zero_apply, broadcastTo_1b_ab_apply, truncf_apply,
    divf_apply, broadcastTo_a1_ab_apply]
  rfl

/-- The stored value of this body at `(p, q)`: the specification's entry with the bias added last. -/
theorem k2_pay1_apply (v0 : Vec Ideal S4000x1 .f32) (v4 v9 : Vec Ideal S4000x64 .f32) (v12 v14 : Vec Ideal S64x64 .f32)
    (v19 : Vec Ideal S1x64 .f32) (p : Fin 4000) (q : Fin 64) :
    Cert.KernelIdeal.Gen.k2_pay1 (F := Ideal) v0 v4 v9 v12 v14 v19 (ix2 p q)
      = Cert.Spec.biasLast (fun k => v4 (ix2 p k)) (v0 (ix2 p (0 : Fin 1))) (fun k => v9 (ix2 p k)) (fun k => v12 (ix2 k q))
          (fun k => v14 (ix2 k q)) (v19 (ix2 (0 : Fin 1) q)) := by
  unfold Cert.KernelIdeal.Gen.k2_pay1
  simp only [shapeCast_self]
  simp only [maximumf_apply, addf_apply, broadcast_apply, matmul_zero_apply, broadcastTo_1b_ab_apply, truncf_apply,
    divf_apply, broadcastTo_a1_ab_apply]
  rfl

/-- The stored value of this body at `(p, q)`: the specification's entry with the bias added last. -/
theorem k3_pay1_apply (v0 : Vec Ideal S4000x1 .f32) (v4 v9 : Vec Ideal S4000x64 .f32) (v12 v14 : Vec Ideal S64x64 .f32)
    (v19 : Vec Ideal S1x64 .f32) (p : Fin 4000) (q : Fin 64) :
    Cert.KernelIdeal.Gen.k3_pay1 (F := Ideal) v0 v4 v9 v12 v14 v19 (ix2 p q)
      = Cert.Spec.biasLast (fun k => v4 (ix2 p k)) (v0 (ix2 p (0 : Fin 1))) (fun k => v9 (ix2 p k)) (fun k => v12 (ix2 k q))
          (fun k => v14 (ix2 k q)) (v19 (ix2 (0 : Fin 1) q)) := by
  unfold Cert.KernelIdeal.Gen.k3_pay1
  simp only [shapeCast_self]
  simp only [maximumf_apply, addf_apply, broadcast_apply, matmul_zero_apply, broadcastTo_1b_ab_apply, truncf_apply,
    divf_apply, broadcastTo_a1_ab_apply]
  rfl

end Cert.PayloadAt

end
-- ==== Proof.RefStageAt.lean ====
/-
  The reference's four layer outputs, each read at one index over the extended reals.

  Every layer of the reference computes, for a destination row `r` and an output column `q`,
      (∑ₖ (s (r,k) / max (cnt (r,0)) 1) · Wl (k,q)  +  b q)  +  ∑ₖ x (r,k) · Wr (k,q),
  where `s` is the sum of the neighbours' feature rows and `cnt` the in-degree column (two scatter-adds, kept as
  opaque functions here), `x` the row's own features, `Wl` and `Wr` the two weight matrices and `b` the bias row;
  the two first-layer outputs are followed by a maximum with zero.  This is `Cert.Spec.biasFirst` entry for entry.
  Nothing is computed: a contraction is read as the sum over its shared axis, a broadcast at the index it copies
  from, a pointwise operation pointwise, and the composed index maps are identified with coordinates.
-/
import proofs.«116008_j56092272886142_2_alg».proof.Proof.Spec
import proofs.«116008_j56092272886142_2_alg».proof.Proof.Gen.ReferenceIdeal.Read
import Idealize.ShloMosaic.Lib.ValueIdx
import Idealize.ShloMosaic.PureOps.Ideal.Laws

noncomputable section

namespace Cert.RefStageAt

open Idealize.ShloMosaic ValueIdx Cert.ReferenceIdeal Cert.ReferenceIdeal.Read

/-! ## Layer A: each indexed operation read at `(r, q)` -/

theorem lidx_v18 (r : Fin 100000) (q k : Fin 64) : lidx_main_v18 (ix2 r q) k = ix2 r k := by
  funext a; match a with | ⟨0, _⟩ => rfl | ⟨1, _⟩ => rfl
theorem ridx_v18 (r : Fin 100000) (q k : Fin 64) : ridx_main_v18 (ix2 r q) k = ix2 k q := by
  funext a; match a with | ⟨0, _⟩ => rfl | ⟨1, _⟩ => rfl
/-- The contraction at `(r, q)`: row `r` of the left operand against column `q` of the right, summed over the shared axis. -/
theorem v18_at (x0 : (⟨S200000x64, .f32⟩ : BufTy).Contents (Elt Ideal)) (x2 : (⟨S64x64, .f32⟩ : BufTy).Contents (Elt Ideal)) (x14 x15 : (⟨S4000000, .i32⟩ : BufTy).Contents (Elt Ideal))
    (r : Fin 100000) (q : Fin 64) :
    val_main_v18 (F := Ideal) x0 x2 x14 x15 (ix2 r q)
      = ∑ k : Fin 64, val_main_v17 (F := Ideal) x0 x14 x15 (ix2 r k) * x2 (ix2 k q) := by
  simp only [val_main_v18_apply, lidx_v18, ridx_v18]
theorem lidx_v22 (r : Fin 100000) (q k : Fin 64) : lidx_main_v22 (ix2 r q) k = ix2 r k := by
  funext a; match a with | ⟨0, _⟩ => rfl | ⟨1, _⟩ => rfl
theorem ridx_v22 (r : Fin 100000) (q k : Fin 64) : ridx_main_v22 (ix2 r q) k = ix2 k q := by
  funext a; match a with | ⟨0, _⟩ => rfl | ⟨1, _⟩ => rfl
/-- The contraction at `(r, q)`: row `r` of the left operand against column `q` of the right, summed over the shared axis. -/
theorem v22_at (x1 : (⟨S100000x64, .f32⟩ : BufTy).Contents (Elt Ideal)) (x3 : (⟨S64x64, .f32⟩ : BufTy).Contents (Elt Ideal))
    (r : Fin 100000) (q : Fin 64) :
    val_main_v22 (F := Ideal) x1 x3 (ix2 r q)
      = ∑ k : Fin 64, x1 (ix2 r k) * x3 (ix2 k q) := by
  simp only [val_main_v22_apply, lidx_v22, ridx_v22]
theorem idx_v16 (r : Fin 100000) (k : Fin 64) : idx_main_v16 (ix2 r k) = ix2 r (0 : Fin 1) := by
  funext a; match a with | ⟨0, _⟩ => rfl | ⟨1, _⟩ => rfl
/-- The in-degree column broadcast along the feature axis: every column of row `r` reads the entry `(r, 0)`. -/
theorem v16_at (x15 : (⟨S4000000, .i32⟩ : BufTy).Contents (Elt Ideal)) (r : Fin 100000) (k : Fin 64) :
    val_main_v16 (F := Ideal) x15 (ix2 r k) = val_main_v15 (F := Ideal) x15 (ix2 r (0 : Fin 1)) := by
  simp only [val_main_v16_apply, idx_v16]
theorem idx_v19_v20 (r : Fin 100000) (q : Fin 64) : idx_main_v19 (idx_main_v20 (ix2 r q)) = ix1 q := by
  funext a; match a with | ⟨0, _⟩ => rfl
/-- The bias row broadcast along the node axis: every row reads the bias at its own column. -/
theorem v20_at (x4 : (⟨S64, .f32⟩ : BufTy).Contents (Elt Ideal)) (r : Fin 100000) (q : Fin 64) :
    val_main_v20 (F := Ideal) x4 (ix2 r q) = x4 (ix1 q) := by
  simp only [val_main_v20_apply, val_main_v19_apply, idx_v19_v20]

/-- The neighbour sum divided by the in-degree raised to at least one, at `(r, k)`: the specification's `mean`. -/
theorem v17_at (x0 : (⟨S200000x64, .f32⟩ : BufTy).Contents (Elt Ideal)) (x14 x15 : (⟨S4000000, .i32⟩ : BufTy).Contents (Elt Ideal))
    (r : Fin 100000) (k : Fin 64) :
    val_main_v17 (F := Ideal) x0 x14 x15 (ix2 r k)
      = Cert.Spec.mean (val_main_v9 (F := Ideal) x0 x14 x15 (ix2 r k)) (val_main_v13 (F := Ideal) x15 (ix2 r (0 : Fin 1))) := by
  rw [Cert.Spec.mean, val_main_v17_apply, v16_at, val_main_v15_apply, val_main_v14_apply, val_main_cst_3_apply,
    Ideal.hostDivf_def, Ideal.maximumf_def, Ideal.ofBits_def]

/-- Layer one on the movie side (100000 rows): users' features summed into movies, movies' own features, then a maximum with zero. -/
theorem stageA_apply
    (x0 : (⟨S200000x64, .f32⟩ : BufTy).Contents (Elt Ideal)) (x1 : (⟨S100000x64, .f32⟩ : BufTy).Contents (Elt Ideal))
    (x2 x3 : (⟨S64x64, .f32⟩ : BufTy).Contents (Elt Ideal)) (x4 : (⟨S64, .f32⟩ : BufTy).Contents (Elt Ideal))
    (x14 x15 : (⟨S4000000, .i32⟩ : BufTy).Contents (Elt Ideal))
    (r : Fin 100000) (q : Fin 64) :
    val_main_v24 (F := Ideal) x0 x1 x2 x3 x4 x14 x15 (ix2 r q)
      = max (Cert.Spec.biasFirst (fun k => val_main_v9 (F := Ideal) x0 x14 x15 (ix2 r k))
          (val_main_v13 (F := Ideal) x15 (ix2 r (0 : Fin 1))) (fun k => x1 (ix2 r k))
          (fun k => x2 (ix2 k q)) (fun k => x3 (ix2 k q)) (x4 (ix1 q))) Cert.Spec.zero := by
  rw [Cert.Spec.biasFirst, val_main_v24_apply, val_main_v23_apply, val_main_v21_apply, v18_at, v22_at, v20_at,
    val_main_call0_v0_apply, val_main_call0_cst_apply, Ideal.maximumf_def, Ideal.addf_def, Ideal.addf_def, Ideal.ofBits_def]
  simp only [v17_at]

/-! ## Layer B: each indexed operation read at `(r, q)` -/

theorem lidx_v43 (r : Fin 200000) (q k : Fin 64) : lidx_main_v43 (ix2 r q) k = ix2 r k := by
  funext a; match a with | ⟨0, _⟩ => rfl | ⟨1, _⟩ => rfl
theorem ridx_v43 (r : Fin 200000) (q k : Fin 64) : ridx_main_v43 (ix2 r q) k = ix2 k q := by
  funext a; match a with | ⟨0, _⟩ => rfl | ⟨1, _⟩ => rfl
/-- The contraction at `(r, q)`: row `r` of the left operand against column `q` of the right, summed over the shared axis. -/
theorem v43_at (x1 : (⟨S100000x64, .f32⟩ : BufTy).Contents (Elt Ideal)) (x5 : (⟨S64x64, .f32⟩ : BufTy).Contents (Elt Ideal)) (x14 x15 : (⟨S4000000, .i32⟩ : BufTy).Contents (Elt Ideal))
    (r : Fin 200000) (q : Fin 64) :
    val_main_v43 (F := Ideal) x1 x5 x14 x15 (ix2 r q)
      = ∑ k : Fin 64, val_main_v42 (F := Ideal) x1 x14 x15 (ix2 r k) * x5 (ix2 k q) := by
  simp only [val_main_v43_apply, lidx_v43, ridx_v43]
theorem lidx_v47 (r : Fin 200000) (q k : Fin 64) : lidx_main_v47 (ix2 r q) k = ix2 r k := by
  funext a; match a with | ⟨0, _⟩ => rfl | ⟨1, _⟩ => rfl
theorem ridx_v47 (r : Fin 200000) (q k : Fin 64) : ridx_main_v47 (ix2 r q) k = ix2 k q := by
  funext a; match a with | ⟨0, _⟩ => rfl | ⟨1, _⟩ => rfl
/-- The contraction at `(r, q)`: row `r` of the left operand against column `q` of the right, summed over the shared axis. -/
theorem v47_at (x0 : (⟨S200000x64, .f32⟩ : BufTy).Contents (Elt Ideal)) (x6 : (⟨S64x64, .f32⟩ : BufTy).Contents (Elt Ideal))
    (r : Fin 200000) (q : Fin 64) :
    val_main_v47 (F := Ideal) x0 x6 (ix2 r q)
      = ∑ k : Fin 64, x0 (ix2 r k) * x6 (ix2 k q) := by
  simp only [val_main_v47_apply, lidx_v47, ridx_v47]
theorem idx_v41 (r : Fin 200000) (k : Fin 64) : idx_main_v41 (ix2 r k) = ix2 r (0 : Fin 1) := by
  funext a; match a with | ⟨0, _⟩ => rfl | ⟨1, _⟩ => rfl
/-- The in-degree column broadcast along the feature axis: every column of row `r` reads the entry `(r, 0)`. -/
theorem v41_at (x14 : (⟨S4000000, .i32⟩ : BufTy).Contents (Elt Ideal)) (r : Fin 200000) (k : Fin 64) :
    val_main_v41 (F := Ideal) x14 (ix2 r k) = val_main_v40 (F := Ideal) x14 (ix2 r (0 : Fin 1)) := by
  simp only [val_main_v41_apply, idx_v41]
theorem idx_v44_v45 (r : Fin 200000) (q : Fin 64) : idx_main_v44 (idx_main_v45 (ix2 r q)) = ix1 q := by
  funext a; match a with | ⟨0, _⟩ => rfl
/-- The bias row broadcast along the node axis: every row reads the bias at its own column. -/
theorem v45_at (x7 : (⟨S64, .f32⟩ : BufTy).Contents (Elt Ideal)) (r : Fin 200000) (q : Fin 64) :
    val_main_v45 (F := Ideal) x7 (ix2 r q) = x7 (ix1 q) := by
  simp only [val_main_v45_apply, val_main_v44_apply, idx_v44_v45]

/-- The neighbour sum divided by the in-degree raised to at least one, at `(r, k)`: the specification's `mean`. -/
theorem v42_at (x1 : (⟨S100000x64, .f32⟩ : BufTy).Contents (Elt Ideal)) (x14 x15 : (⟨S4000000, .i32⟩ : BufTy).Contents (Elt Ideal))
    (r : Fin 200000) (k : Fin 64) :
    val_main_v42 (F := Ideal) x1 x14 x15 (ix2 r k)
      = Cert.Spec.mean (val_main_v34 (F := Ideal) x1 x14 x15 (ix2 r k)) (val_main_v38 (F := Ideal) x14 (ix2 r (0 : Fin 1))) := by
  rw [Cert.Spec.mean, val_main_v42_apply, v41_at, val_main_v40_apply, val_main_v39_apply, val_main_cst_9_apply,
    Ideal.hostDivf_def, Ideal.maximumf_def, Ideal.ofBits_def]

/-- Layer one on the user side (200000 rows): movies' features summed into users, users' own features, then a maximum with zero. -/
theorem stageB_apply
    (x0 : (⟨S200000x64, .f32⟩ : BufTy).Contents (Elt Ideal)) (x1 : (⟨S100000x64, .f32⟩ : BufTy).Contents (Elt Ideal))
    (x5 x6 : (⟨S64x64, .f32⟩ : BufTy).Contents (Elt Ideal)) (x7 : (⟨S64, .f32⟩ : BufTy).Contents (Elt Ideal))
    (x14 x15 : (⟨S4000000, .i32⟩ : BufTy).Contents (Elt Ideal))
    (r : Fin 200000) (q : Fin 64) :
    val_main_v49 (F := Ideal) x0 x1 x5 x6 x7 x14 x15 (ix2 r q)
      = max (Cert.Spec.biasFirst (fun k => val_main_v34 (F := Ideal) x1 x14 x15 (ix2 r k))
          (val_main_v38 (F := Ideal) x14 (ix2 r (0 : Fin 1))) (fun k => x0 (ix2 r k))
          (fun k => x5 (ix2 k q)) (fun k => x6 (ix2 k q)) (x7 (ix1 q))) Cert.Spec.zero := by
  rw [Cert.Spec.biasFirst, val_main_v49_apply, val_main_v48_apply, val_main_v46_apply, v43_at, v47_at, v45_at,
    val_main_call1_v0_apply, val_main_call1_cst_apply, Ideal.maximumf_def, Ideal.addf_def, Ideal.addf_def, Ideal.ofBits_def]
  simp only [v42_at]

/-! ## Layer C: each indexed operation read at `(r, q)` -/

theorem lidx_v68 (r : Fin 100000) (q k : Fin 64) : lidx_main_v68 (ix2 r q) k = ix2 r k := by
  funext a; match a with | ⟨0, _⟩ => rfl | ⟨1, _⟩ => rfl
theorem ridx_v68 (r : Fin 100000) (q k : Fin 64) : ridx_main_v68 (ix2 r q) k = ix2 k q := by
  funext a; match a with | ⟨0, _⟩ => rfl | ⟨1, _⟩ => rfl
/-- The contraction at `(r, q)`: row `r` of the left operand against column `q` of the right, summed over the shared axis. -/
theorem v68_at (x0 : (⟨S200000x64, .f32⟩ : BufTy).Contents (Elt Ideal)) (x1 : (⟨S100000x64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x14 x15 : (⟨S4000000, .i32⟩ : BufTy).Contents (Elt Ideal))
    (r : Fin 100000) (q : Fin 64) :
    val_main_v68 (F := Ideal) x0 x1 x5 x6 x7 x8 x14 x15 (ix2 r q)
      = ∑ k : Fin 64, val_main_v67 (F := Ideal) x0 x1 x5 x6 x7 x14 x15 (ix2 r k) * x8 (ix2 k q) := by
  simp only [val_main_v68_apply, lidx_v68, ridx_v68]
theorem lidx_v72 (r : Fin 100000) (q k : Fin 64) : lidx_main_v72 (ix2 r q) k = ix2 r k := by
  funext a; match a with | ⟨0, _⟩ => rfl | ⟨1, _⟩ => rfl
theorem ridx_v72 (r : Fin 100000) (q k : Fin 64) : ridx_main_v72 (ix2 r q) k = ix2 k q := by
  funext a; match a with | ⟨0, _⟩ => rfl | ⟨1, _⟩ => rfl
/-- The contraction at `(r, q)`: row `r` of the left operand against column `q` of the right, summed over the shared axis. -/
theorem v72_at (x0 : (⟨S200000x64, .f32⟩ : BufTy).Contents (Elt Ideal)) (x1 : (⟨S100000x64, .f32⟩ : BufTy).Contents (Elt Ideal)) (x2 x3 : (⟨S64x64, .f32⟩ : BufTy).Contents (Elt Ideal)) (x4 : (⟨S64, .f32⟩ : BufTy).Contents (Elt Ideal)) (x9 : (⟨S64x64, .f32⟩ : BufTy).Contents (Elt Ideal)) (x14 x15 : (⟨S4000000, .i32⟩ : BufTy).Contents (Elt Ideal))
    (r : Fin 100000) (q : Fin 64) :
    val_main_v72 (F := Ideal) x0 x1 x2 x3 x4 x9 x14 x15 (ix2 r q)
      = ∑ k : Fin 64, val_main_v24 (F := Ideal) x0 x1 x2 x3 x4 x14 x15 (ix2 r k) * x9 (ix2 k q) := by
  simp only [val_main_v72_apply, lidx_v72, ridx_v72]
theorem idx_v66 (r : Fin 100000) (k : Fin 64) : idx_main_v66 (ix2 r k) = ix2 r (0 : Fin 1) := by
  funext a; match a with | ⟨0, _⟩ => rfl | ⟨1, _⟩ => rfl
/-- The in-degree column broadcast along the feature axis: every column of row `r` reads the entry `(r, 0)`. -/
theorem v66_at (x15 : (⟨S4000000, .i32⟩ : BufTy).Contents (Elt Ideal)) (r : Fin 100000) (k : Fin 64) :
    val_main_v66 (F := Ideal) x15 (ix2 r k) = val_main_v65 (F := Ideal) x15 (ix2 r (0 : Fin 1)) := by
  simp only [val_main_v66_apply, idx_v66]
theorem idx_v69_v70 (r : Fin 100000) (q : Fin 64) : idx_main_v69 (idx_main_v70 (ix2 r q)) = ix1 q := by
  funext a; match a with | ⟨0, _⟩ => rfl
/-- The bias row broadcast along the node axis: every row reads the bias at its own column. -/
theorem v70_at (x10 : (⟨S64, .f32⟩ : BufTy).Contents (Elt Ideal)) (r : Fin 100000) (q : Fin 64) :
    val_main_v70 (F := Ideal) x10 (ix2 r q) = x10 (ix1 q) := by
  simp only [val_main_v70_apply, val_main_v69_apply, idx_v69_v70]

/-- The neighbour sum divided by the in-degree raised to at least one, at `(r, k)`: the specification's `mean`. -/
theorem v67_at (x0 : (⟨S200000x64, .f32⟩ : BufTy).Contents (Elt Ideal)) (x1 : (⟨S100000x64, .f32⟩ : BufTy).Contents (Elt Ideal)) (x5 x6 : (⟨S64x64, .f32⟩ : BufTy).Contents (Elt Ideal)) (x7 : (⟨S64, .f32⟩ : BufTy).Contents (Elt Ideal)) (x14 x15 : (⟨S4000000, .i32⟩ : BufTy).Contents (Elt Ideal))
    (r : Fin 100000) (k : Fin 64) :
    val_main_v67 (F := Ideal) x0 x1 x5 x6 x7 x14 x15 (ix2 r k)
      = Cert.Spec.mean (val_main_v59 (F := Ideal) x0 x1 x5 x6 x7 x14 x15 (ix2 r k)) (val_main_v63 (F := Ideal) x15 (ix2 r (0 : Fin 1))) := by
  rw [Cert.Spec.mean, val_main_v67_apply, v66_at, val_main_v65_apply, val_main_v64_apply, val_main_cst_15_apply,
    Ideal.hostDivf_def, Ideal.maximumf_def, Ideal.ofBits_def]

/-- Layer two on the movie side (100000 rows): the first layer's user rows summed into movies, the first layer's movie rows as own features, no maximum. -/
theorem stageC_apply
    (x0 : (⟨S200000x64, .f32⟩ : BufTy).Contents (Elt Ideal)) (x1 : (⟨S100000x64, .f32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal))
    (x14 x15 : (⟨S4000000, .i32⟩ : BufTy).Contents (Elt Ideal))
    (r : Fin 100000) (q : Fin 64) :
    val_main_v73 (F := Ideal) x0 x1 x2 x3 x4 x5 x6 x7 x8 x9 x10 x14 x15 (ix2 r q)
      = Cert.Spec.biasFirst (fun k => val_main_v59 (F := Ideal) x0 x1 x5 x6 x7 x14 x15 (ix2 r k))
          (val_main_v63 (F := Ideal) x15 (ix2 r (0 : Fin 1))) (fun k => val_main_v24 (F := Ideal) x0 x1 x2 x3 x4 x14 x15 (ix2 r k))
          (fun k => x8 (ix2 k q)) (fun k => x9 (ix2 k q)) (x10 (ix1 q)) := by
  rw [Cert.Spec.biasFirst, val_main_v73_apply, val_main_v71_apply, v68_at, v72_at, v70_at, Ideal.addf_def,
    Ideal.addf_def]
  simp only [v67_at]

/-! ## Layer D: each indexed operation read at `(r, q)` -/

theorem lidx_v92 (r : Fin 200000) (q k : Fin 64) : lidx_main_v92 (ix2 r q) k = ix2 r k := by
  funext a; match a with | ⟨0, _⟩ => rfl | ⟨1, _⟩ => rfl
theorem ridx_v92 (r : Fin 200000) (q k : Fin 64) : ridx_main_v92 (ix2 r q) k = ix2 k q := by
  funext a; match a with | ⟨0, _⟩ => rfl | ⟨1, _⟩ => rfl
/-- The contraction at `(r, q)`: row `r` of the left operand against column `q` of the right, summed over the shared axis. -/
theorem v92_at (x0 : (⟨S200000x64, .f32⟩ : BufTy).Contents (Elt Ideal)) (x1 : (⟨S100000x64, .f32⟩ : BufTy).Contents (Elt Ideal)) (x2 x3 : (⟨S64x64, .f32⟩ : BufTy).Contents (Elt Ideal)) (x4 : (⟨S64, .f32⟩ : BufTy).Contents (Elt Ideal)) (x11 : (⟨S64x64, .f32⟩ : BufTy).Contents (Elt Ideal)) (x14 x15 : (⟨S4000000, .i32⟩ : BufTy).Contents (Elt Ideal))
    (r : Fin 200000) (q : Fin 64) :
    val_main_v92 (F := Ideal) x0 x1 x2 x3 x4 x11 x14 x15 (ix2 r q)
      = ∑ k : Fin 64, val_main_v91 (F := Ideal) x0 x1 x2 x3 x4 x14 x15 (ix2 r k) * x11 (ix2 k q) := by
  simp only [val_main_v92_apply, lidx_v92, ridx_v92]
theorem lidx_v96 (r : Fin 200000) (q k : Fin 64) : lidx_main_v96 (ix2 r q) k = ix2 r k := by
  funext a; match a with | ⟨0, _⟩ => rfl | ⟨1, _⟩ => rfl
theorem ridx_v96 (r : Fin 200000) (q k : Fin 64) : ridx_main_v96 (ix2 r q) k = ix2 k q := by
  funext a; match a with | ⟨0, _⟩ => rfl | ⟨1, _⟩ => rfl
/-- The contraction at `(r, q)`: row `r` of the left operand against column `q` of the right, summed over the shared axis. -/
theorem v96_at (x0 : (⟨S200000x64, .f32⟩ : BufTy).Contents (Elt Ideal)) (x1 : (⟨S100000x64, .f32⟩ : BufTy).Contents (Elt Ideal)) (x5 x6 : (⟨S64x64, .f32⟩ : BufTy).Contents (Elt Ideal)) (x7 : (⟨S64, .f32⟩ : BufTy).Contents (Elt Ideal)) (x12 : (⟨S64x64, .f32⟩ : BufTy).Contents (Elt Ideal)) (x14 x15 : (⟨S4000000, .i32⟩ : BufTy).Contents (Elt Ideal))
    (r : Fin 200000) (q : Fin 64) :
    val_main_v96 (F := Ideal) x0 x1 x5 x6 x7 x12 x14 x15 (ix2 r q)
      = ∑ k : Fin 64, val_main_v49 (F := Ideal) x0 x1 x5 x6 x7 x14 x15 (ix2 r k) * x12 (ix2 k q) := by
  simp only [val_main_v96_apply, lidx_v96, ridx_v96]
theorem idx_v90 (r : Fin 200000) (k : Fin 64) : idx_main_v90 (ix2 r k) = ix2 r (0 : Fin 1) := by
  funext a; match a with | ⟨0, _⟩ => rfl | ⟨1, _⟩ => rfl
/-- The in-degree column broadcast along the feature axis: every column of row `r` reads the entry `(r, 0)`. -/
theorem v90_at (x14 : (⟨S4000000, .i32⟩ : BufTy).Contents (Elt Ideal)) (r : Fin 200000) (k : Fin 64) :
    val_main_v90 (F := Ideal) x14 (ix2 r k) = val_main_v89 (F := Ideal) x14 (ix2 r (0 : Fin 1)) := by
  simp only [val_main_v90_apply, idx_v90]
theorem idx_v93_v94 (r : Fin 200000) (q : Fin 64) : idx_main_v93 (idx_main_v94 (ix2 r q)) = ix1 q := by
  funext a; match a with | ⟨0, _⟩ => rfl
/-- The bias row broadcast along the node axis: every row reads the bias at its own column. -/
theorem v94_at (x13 : (⟨S64, .f32⟩ : BufTy).Contents (Elt Ideal)) (r : Fin 200000) (q : Fin 64) :
    val_main_v94 (F := Ideal) x13 (ix2 r q) = x13 (ix1 q) := by
  simp only [val_main_v94_apply, val_main_v93_apply, idx_v93_v94]

/-- The neighbour sum divided by the in-degree raised to at least one, at `(r, k)`: the specification's `mean`. -/
theorem v91_at (x0 : (⟨S200000x64, .f32⟩ : BufTy).Contents (Elt Ideal)) (x1 : (⟨S100000x64, .f32⟩ : BufTy).Contents (Elt Ideal)) (x2 x3 : (⟨S64x64, .f32⟩ : BufTy).Contents (Elt Ideal)) (x4 : (⟨S64, .f32⟩ : BufTy).Contents (Elt Ideal)) (x14 x15 : (⟨S4000000, .i32⟩ : BufTy).Contents (Elt Ideal))
    (r : Fin 200000) (k : Fin 64) :
    val_main_v91 (F := Ideal) x0 x1 x2 x3 x4 x14 x15 (ix2 r k)
      = Cert.Spec.mean (val_main_v83 (F := Ideal) x0 x1 x2 x3 x4 x14 x15 (ix2 r k)) (val_main_v87 (F := Ideal) x14 (ix2 r (0 : Fin 1))) := by
  rw [Cert.Spec.mean, val_main_v91_apply, v90_at, val_main_v89_apply, val_main_v88_apply, val_main_cst_21_apply,
    Ideal.hostDivf_def, Ideal.maximumf_def, Ideal.ofBits_def]

/-- Layer two on the user side (200000 rows): the first layer's movie rows summed into users, the first layer's user rows as own features, no maximum. -/
theorem stageD_apply
    (x0 : (⟨S200000x64, .f32⟩ : BufTy).Contents (Elt Ideal)) (x1 : (⟨S100000x64, .f32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x11 x12 : (⟨S64x64, .f32⟩ : BufTy).Contents (Elt Ideal)) (x13 : (⟨S64, .f32⟩ : BufTy).Contents (Elt Ideal))
    (x14 x15 : (⟨S4000000, .i32⟩ : BufTy).Contents (Elt Ideal))
    (r : Fin 200000) (q : Fin 64) :
    val_main_v97 (F := Ideal) x0 x1 x2 x3 x4 x5 x6 x7 x11 x12 x13 x14 x15 (ix2 r q)
      = Cert.Spec.biasFirst (fun k => val_main_v83 (F := Ideal) x0 x1 x2 x3 x4 x14 x15 (ix2 r k))
          (val_main_v87 (F := Ideal) x14 (ix2 r (0 : Fin 1))) (fun k => val_main_v49 (F := Ideal) x0 x1 x5 x6 x7 x14 x15 (ix2 r k))
          (fun k => x11 (ix2 k q)) (fun k => x12 (ix2 k q)) (x13 (ix1 q)) := by
  rw [Cert.Spec.biasFirst, val_main_v97_apply, val_main_v95_apply, v92_at, v96_at, v94_at, Ideal.addf_def,
    Ideal.addf_def]
  simp only [v91_at]

end Cert.RefStageAt

end
-- ==== Proof.CountLemma.lean ====
/-
  The two programs count a node's in-degree in two ways: one adds the 32-bit word `1` once per edge into a
  table of zero words, in row-major order of the edges, and converts the final word to a real; the other sums
  the real `1` over the edges whose start index is the node. Both are the number of edges `e` whose index word,
  read signed, is the node: the integer sum cannot wrap because there are fewer than `2^31` edges.

  Contents: a scatter whose body is an addition in a commutative monoid is the operand's element plus the sum of
  the updates landing on it (`scatter_add_apply`); when an update lands on a given element, for the two sets of
  dimension numbers used here (`resultIdxK`, `resultIdxR`); the equality of the two counts (`count_eq`) and its
  two instances at the programs' shapes; the two constants `0` and `1` at f32.
-/
import proofs.«116008_j56092272886142_2_alg».proof.KernelIdeal
import proofs.«116008_j56092272886142_2_alg».proof.ReferenceIdeal
import proofs.«116008_j56092272886142_2_alg».proof.Proof.Gen.KernelIdeal
import proofs.«116008_j56092272886142_2_alg».proof.Proof.Gen.ReferenceIdeal
import Idealize.ShloMosaic.PureOps.Ideal
import Idealize.ShloMosaic.Lib.ValueIdx
import Idealize.ShloMosaic.Lib.IdealHost
import Mathlib.Data.BitVec

open scoped BigOperators

namespace Cert.CountLemma

open Idealize.ShloMosaic Idealize.ShloMosaic.ValueIdx

/-! ## A scatter with an additive body is a sum over the updates that land -/

section Fold
variable {α : Type} [AddCommMonoid α] {s si u : Shape} {w : Nat}

/-- Folding the scatter step over any list of update numbers: the element at `i` gains the updates of the list
    that land on `i`. -/
theorem foldl_apply (d : ScatterDims s si u) (f : α → α → α) (hf : ∀ a b, f a b = a + b)
    (idx : IVec si w) (upd : u.Idx → α) (l : List (Fin u.numel)) (x : s.Idx → α) (i : s.Idx) :
    (l.foldl (fun r n =>
      match d.resultIdx? (u.rowMajor.symm n) idx with
      | some i => fun i' => if i' = i then f (r i) (upd (u.rowMajor.symm n)) else r i'
      | none => r) x) i
    = x i + (l.map (fun n => if d.resultIdx? (u.rowMajor.symm n) idx = some i then upd (u.rowMajor.symm n) else 0)).sum := by
  induction l generalizing x with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp [hf]
      · have hne : ¬ i0 = i := fun h => hi h.symm
        simp [hi, hne]

/-- The scatter with an additive body, read at `i`: the operand's element plus the sum of the updates whose
    result index is `i`. The row-major enumeration of the updates is a bijection, so the sum over the list of
    all update numbers is the sum over all update indices. -/
theorem scatter_add_apply (d : ScatterDims s si u) (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  refine (foldl_apply d f hf idx upd _ x i).trans ?_
  congr 1
  rw [Finset.sum_filter, ← Equiv.sum_comp u.rowMajor.symm, Fin.sum_univ_def]

end Fold

/-- An update lands at `i` exactly when start plus window coordinate is `i`'s coordinate on every axis. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      intro a
      have h1 : (d.start j idx a + (d.window j a : Int)).toNat = (i a).val :=
        congrArg Fin.val (congrFun (Option.some.inj h) a)
      have := hc a
      omega
    · cases h
  · intro hall
    have hc : ∀ a, 0 ≤ d.start j idx a + (d.window j a : Int) ∧ d.start j idx a + (d.window j a : Int) < (s.size a : Int) := by
      intro a
      have := hall a
      have := (i a).isLt
      omega
    rw [dif_pos hc]
    congr 1
    funext a
    apply Fin.ext
    show (d.start j idx a + (d.window j a : Int)).toNat = (i a).val
    have := hall a
    omega

/-! ## The integer count's dimension numbers: operand `[n]`, indices `[m, 1]`, updates `[m]` -/

abbrev dimsK (n m : Nat) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

theorem startK {n m w : Nat} (wf) (idx : IVec ⟨2, ![m, 1]⟩ w) (j : (⟨1, ![m]⟩ : Shape).Idx) (a : Fin 1) :
    (dimsK n m wf).start j idx a = (idx (ix2 (j 0) 0)).toInt := by
  obtain rfl : a = 0 := Subsingleton.elim _ _
  unfold ScatterDims.start
  rw [dif_pos (show (0 : Fin 1) ∈ (dimsK n m wf).scatterDimsToOperandDims from List.mem_singleton.mpr rfl)]
  congr 2
  funext b; refine Fin.ext ?_
  match b with
  | ⟨0, _⟩ => rfl
  | ⟨1, _⟩ => rfl

theorem windowK {n m : Nat} (wf) (j : (⟨1, ![m]⟩ : Shape).Idx) (a : Fin 1) :
    (dimsK n m wf).window j a = 0 := by
  obtain rfl : a = 0 := Subsingleton.elim _ _
  unfold ScatterDims.window
  rw [dif_neg]
  show ¬ ((0 : Fin 1) ∈ (List.finRange 1).filter (fun a => a ∉ [(0 : Fin 1)]))
  decide

theorem resultIdxK {n m w : Nat} (wf) (idx : IVec ⟨2, ![m, 1]⟩ w) (j : (⟨1, ![m]⟩ : Shape).Idx)
    (i : (⟨1, ![n]⟩ : Shape).Idx) :
    (dimsK n m wf).resultIdx? j idx = some i ↔ (idx (ix2 (j 0) 0)).toInt = ((i 0).val : Int) := by
  rw [resultIdx?_eq_some_iff]
  constructor
  · intro h
    have := h 0
    rw [startK, windowK] at this
    simpa using this
  · intro h a
    obtain rfl : a = 0 := Subsingleton.elim _ _
    rw [startK, windowK]
    simpa using h

/-! ## The float count's dimension numbers: operand `[n, 1]`, indices `[m, 1]`, updates `[m, 1]` -/

abbrev dimsR (n m : Nat) (wf : ScatterDims.WF ⟨2, ![n, 1]⟩ ⟨2, ![m, 1]⟩ ⟨2, ![m, 1]⟩ [1] [0] [0] 1) :
    ScatterDims ⟨2, ![n, 1]⟩ ⟨2, ![m, 1]⟩ ⟨2, ![m, 1]⟩ where
  updateWindowDims := [1]
  insertedWindowDims := [0]
  scatterDimsToOperandDims := [0]
  indexVectorDim := 1
  wf := wf

theorem startR0 {n m w : Nat} (wf) (idx : IVec ⟨2, ![m, 1]⟩ w) (j : (⟨2, ![m, 1]⟩ : Shape).Idx) :
    (dimsR n m wf).start j idx 0 = (idx (ix2 (j 0) 0)).toInt := by
  unfold ScatterDims.start
  rw [dif_pos (show (0 : Fin 2) ∈ (dimsR n m wf).scatterDimsToOperandDims from List.mem_singleton.mpr rfl)]
  congr 2
  funext b; refine Fin.ext ?_
  match b with
  | ⟨0, _⟩ => rfl
  | ⟨1, _⟩ => rfl

theorem startR1 {n m w : Nat} (wf) (idx : IVec ⟨2, ![m, 1]⟩ w) (j : (⟨2, ![m, 1]⟩ : Shape).Idx) :
    (dimsR n m wf).start j idx 1 = 0 := by
  unfold ScatterDims.start
  rw [dif_neg]
  show ¬ ((1 : Fin 2) ∈ [(0 : Fin 2)])
  decide

theorem windowR0 {n m : Nat} (wf) (j : (⟨2, ![m, 1]⟩ : Shape).Idx) :
    (dimsR n m wf).window j 0 = 0 := by
  unfold ScatterDims.window
  rw [dif_neg]
  show ¬ ((0 : Fin 2) ∈ (List.finRange 2).filter (fun a => a ∉ [(0 : Fin 2)]))
  decide

theorem windowR1 {n m : Nat} (wf) (j : (⟨2, ![m, 1]⟩ : Shape).Idx) :
    (dimsR n m wf).window j 1 = (j 1).val := by
  unfold ScatterDims.window
  have h1 : (1 : Fin 2) ∈ (dimsR n m wf).sKept := by
    show (1 : Fin 2) ∈ (List.finRange 2).filter (fun a => a ∉ [(0 : Fin 2)])
    decide
  rw [dif_pos h1]
  rfl

theorem resultIdxR {n m w : Nat} (wf) (idx : IVec ⟨2, ![m, 1]⟩ w) (j : (⟨2, ![m, 1]⟩ : Shape).Idx)
    (i : (⟨2, ![n, 1]⟩ : Shape).Idx) :
    (dimsR n m wf).resultIdx? j idx = some i ↔ (idx (ix2 (j 0) 0)).toInt = ((i 0).val : Int) := by
  rw [resultIdx?_eq_some_iff]
  have hj : (j 1).val < 1 := idx2_lt1 j
  have hi : (i 1).val < 1 := idx2_lt1 i
  constructor
  · intro h
    have := h 0
    rw [startR0, windowR0] at this
    simpa using this
  · intro h a
    match a with
    | ⟨0, _⟩ =>
      show (dimsR n m wf).start j idx 0 + (((dimsR n m wf).window j 0 : Nat) : Int) = ((i 0).val : Int)
      rw [startR0, windowR0]
      simpa using h
    | ⟨1, _⟩ =>
      show (dimsR n m wf).start j idx 1 + (((dimsR n m wf).window j 1 : Nat) : Int) = ((i 1).val : Int)
      rw [startR1, windowR1]
      omega

/-! ## The two counts agree -/

/-- With `m < 2^31` updates, the 32-bit count of the updates landing at node `r`, read signed, is the exact
    real count: both are the number of update rows whose index word, read signed, is `r`, and the rows of the
    one-axis update array correspond to the rows of the `[m, 1]` update array by `j ↦ (j, 0)`. -/
theorem count_eq {n m : Nat} (hm : m < 2 ^ 31) (wfK) (wfR) (idx : IVec ⟨2, ![m, 1]⟩ 32) (r : Fin n) :
    (((Host.scatter (dimsK n m wfK) IntOp.addi (fun _ => 0#32) idx (fun _ => 1#32) (ix1 r)).toInt : ℝ) : EReal)
      = Ideal.hostScatterAdd (dimsR n m wfR) (fun _ => (0 : EReal)) idx (fun _ => (1 : EReal)) (ix2 r 0) := by
  rw [scatter_add_apply _ IntOp.addi (fun _ _ => rfl)]
  unfold Ideal.hostScatterAdd
  have key : ∀ (cK cR : Nat), cK = cR → cK ≤ m →
      ((((0#32 + cK • (1#32 : BitVec 32)).toInt : ℤ) : ℝ) : EReal) = (0 : EReal) + cR • (1 : EReal) := by
    intro cK cR h hle
    subst h
    have h1 : (0#32 + cK • (1#32 : BitVec 32)) = BitVec.ofNat 32 cK := by
      rw [BitVec.zero_add, nsmul_eq_mul, BitVec.mul_one]; rfl
    have h2 : (BitVec.ofNat 32 cK).toInt = (cK : Int) := by
      have h3 : (BitVec.ofNat 32 cK).toNat = cK := by
        rw [BitVec.toNat_ofNat, Nat.mod_eq_of_lt (by omega)]
      rw [BitVec.toInt_eq_toNat_of_lt (by rw [h3]; omega), h3]
    have h4 : cK • (1 : EReal) = ((cK : ℝ) : EReal) := by
      first
        | exact (nsmul_one cK).trans (EReal.coe_coe_eq_natCast cK).symm
        | simp
    rw [h1, h2, Int.cast_natCast, zero_add, h4]
  simp only [Finset.sum_const]
  refine key _ _ ?_ ?_
  · refine Finset.card_bij (fun j _ => ix2 (j 0) 0) ?_ ?_ ?_
    · intro j hj
      have hj' := (Finset.mem_filter.mp hj).2
      refine Finset.mem_filter.mpr ⟨Finset.mem_univ _, ?_⟩
      exact (resultIdxR wfR idx _ (ix2 r 0)).mpr ((resultIdxK wfK idx j (ix1 r)).mp hj')
    · intro a _ b _ hab
      have h0 : a 0 = b 0 := congrFun hab 0
      rw [eq_ix1 a, eq_ix1 b, h0]
    · intro b hb
      have hb' := (Finset.mem_filter.mp hb).2
      refine ⟨ix1 (b 0), Finset.mem_filter.mpr ⟨Finset.mem_univ _, ?_⟩, ?_⟩
      · exact (resultIdxK wfK idx _ (ix1 r)).mpr ((resultIdxR wfR idx b (ix2 r 0)).mp hb')
      · funext a
        match a with
        | ⟨0, _⟩ => rfl
        | ⟨1, _⟩ =>
          have := idx2_lt1 b
          exact Fin.ext (by show 0 = (b 1).val; omega)
  · refine (Finset.card_filter_le _ _).trans ?_
    rw [Finset.card_univ]
    have h := Shape.card_idx (⟨1, ![m]⟩ : Shape)
    have hn : (⟨1, ![m]⟩ : Shape).numel = m := by
      first
        | simp [Shape.numel]
        | (show ∏ a : Fin 1, ![m] a = m; simp)
    exact (h.trans hn).le

/-- The count at the programs' first node table: 100000 nodes, 4000000 edges. -/
theorem count_eq_100000 [Cert.KernelIdeal.Facts₀] [Cert.ReferenceIdeal.Facts₀]
    (idx : IVec Cert.KernelIdeal.S4000000x1 32) (r : Fin 100000) :
    (((Host.scatter Cert.KernelIdeal.scatter_S100000_S4000000x1_S4000000_n_0_0_1 IntOp.addi
        (fun _ => 0#32) idx (fun _ => 1#32) (ix1 r)).toInt : ℝ) : EReal)
      = Ideal.hostScatterAdd Cert.ReferenceIdeal.scatter_S100000x1_S4000000x1_S4000000x1_1_0_0_1
          (fun _ => (0 : EReal)) idx (fun _ => (1 : EReal)) (ix2 r 0) :=
  count_eq (n := 100000) (m := 4000000) (by norm_num)
    Cert.KernelIdeal.Gen.scatter_S100000_S4000000x1_S4000000_n_0_0_1_wf
    Cert.ReferenceIdeal.Gen.scatter_S100000x1_S4000000x1_S4000000x1_1_0_0_1_wf idx r

/-- The count at the programs' second node table: 200000 nodes, 4000000 edges. -/
theorem count_eq_200000 [Cert.KernelIdeal.Facts₀] [Cert.ReferenceIdeal.Facts₀]
    (idx : IVec Cert.KernelIdeal.S4000000x1 32) (r : Fin 200000) :
    (((Host.scatter Cert.KernelIdeal.scatter_S200000_S4000000x1_S4000000_n_0_0_1 IntOp.addi
        (fun _ => 0#32) idx (fun _ => 1#32) (ix1 r)).toInt : ℝ) : EReal)
      = Ideal.hostScatterAdd Cert.ReferenceIdeal.scatter_S200000x1_S4000000x1_S4000000x1_1_0_0_1
          (fun _ => (0 : EReal)) idx (fun _ => (1 : EReal)) (ix2 r 0) :=
  count_eq (n := 200000) (m := 4000000) (by norm_num)
    Cert.KernelIdeal.Gen.scatter_S200000_S4000000x1_S4000000_n_0_0_1_wf
    Cert.ReferenceIdeal.Gen.scatter_S200000x1_S4000000x1_S4000000x1_1_0_0_1_wf idx r

/-! ## The two constants -/

/-- The f32 pattern of `1.0` is the extended real one. -/
theorem ofBits_one : Ideal.ofBits .f32 0x3F800000#32 = (1 : EReal) := Ideal.ofBits_one_f32

/-- The f32 pattern of `+0.0` is the extended real zero. -/
theorem ofBits_zero : Ideal.ofBits .f32 0x00000000#32 = (0 : EReal) := Ideal.ofBits_zero_f32

end Cert.CountLemma
-- ==== Proof.Stages.lean ====
/-
  The kernel program's intermediate arrays are the reference's.

  Both programs compute two graph-convolution layers over a bipartite graph.  Each layer gathers source rows along
  the edges, sums them into destination rows, divides by the destination's in-degree (at least one), and applies two
  64×64 linear maps and a bias.  The kernel program wraps a negative destination index by the row count before
  summing; on nonnegative indices the wrap is the identity, so its sums are the reference's.  It rounds the
  gathered rows to a narrower format and back, the identity on exact reals.  It counts in-degrees with integers and
  converts; the count cannot overflow, so it is the reference's float count.  The dense part of each layer is a tiled
  region whose array is the layer's entries with the bias added last, where the reference adds it first; the two
  associations agree.  Layer by layer each kernel array is therefore the corresponding stage of the reference.
-/
import proofs.«116008_j56092272886142_2_alg».proof.Proof.Boundary
import proofs.«116008_j56092272886142_2_alg».proof.Proof.Layer0
import proofs.«116008_j56092272886142_2_alg».proof.Proof.Layer1
import proofs.«116008_j56092272886142_2_alg».proof.Proof.Layer2
import proofs.«116008_j56092272886142_2_alg».proof.Proof.Layer3
import proofs.«116008_j56092272886142_2_alg».proof.Proof.PayloadAt
import proofs.«116008_j56092272886142_2_alg».proof.Proof.RefStageAt
import proofs.«116008_j56092272886142_2_alg».proof.Proof.PreIdx
import proofs.«116008_j56092272886142_2_alg».proof.Proof.CountLemma

set_option maxRecDepth 16384

noncomputable section

namespace Cert.KernelIdeal.Stages

open Cert.KernelIdeal Cert.KernelIdeal.Gen Cert.KernelIdeal.Boundary
open Idealize.ShloMosaic Idealize.ShloMosaic.TcCoe Idealize.SL.Sem Idealize.ShloMosaic.StableHlo Idealize.ShloMosaic.ValueIdx
open Idealize.ShloMosaic.Pipeline (Dat)
open Cert.ReferenceIdeal.Read

variable (m : (ℓ : Loc nD τ sig) → Buf (Elt Ideal) ℓ) (ρ : Dev nD → PrngReg)

/-! ## Small readings -/

/-- An `[n]` array laid out as an `[n, 1]` column reads at `(r, 0)` what the array holds at `r`. -/
theorem col_read {α : Type} {n : ℕ} (x : (⟨1, ![n]⟩ : Shape).Idx → α) (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_two, Shape.rowMajor_val_one]
    show r.val = r.val * 1 + 0
    omega)

/-- A scalar broadcast to any shape holds the scalar everywhere. -/
theorem bcast_scalar {α : Type} (t : Shape) (h : (⟨0, ![]⟩ : Shape).BroadcastsInDim t ![]) (x : (⟨0, ![]⟩ : Shape).Idx → α) :
    broadcastInDim t ![] h x = fun _ => x ix0 :=
  funext fun j => broadcastInDim_apply _ h x j ix0 (fun a => a.elim0)

/-! ## The neighbour sums -/

/-- Layer one, movie side: user rows gathered along the edges and summed into movie rows. -/
theorem sum1 (hidx : ∀ c : Dev nD, (∀ e, 0 ≤ ((m ((c : Thread nD τ).loc main_arg14)) e).toInt) ∧ (∀ e, 0 ≤ ((m ((c : Thread nD τ).loc main_arg15)) e).toInt)) (c : Dev nD) : W1 (F := Ideal) m ρ c (Proc.devRef .tc main_v38) = val_main_v9 (F := Ideal) (m ((c : Thread nD τ).loc main_arg0)) (m ((c : Thread nD τ).loc main_arg14)) (m ((c : Thread nD τ).loc main_arg15)) := by
  show StableHlo.after hostOps0 (W0 m ρ c) (Proc.devRef .tc main_v38) = _
  after_results_simp
  rw [Cert.PreIdx.wrap_id 100000#32 _ (hidx c).2]
  rfl

/-- Layer one, user side: movie rows gathered along the edges and summed into user rows. -/
theorem sum2 (hidx : ∀ c : Dev nD, (∀ e, 0 ≤ ((m ((c : Thread nD τ).loc main_arg14)) e).toInt) ∧ (∀ e, 0 ≤ ((m ((c : Thread nD τ).loc main_arg15)) e).toInt)) (c : Dev nD) : W3 (F := Ideal) m ρ c (Proc.devRef .tc main_v57) = val_main_v34 (F := Ideal) (m ((c : Thread nD τ).loc main_arg1)) (m ((c : Thread nD τ).loc main_arg14)) (m ((c : Thread nD τ).loc main_arg15)) := by
  show StableHlo.after hostOps1 (W2 m ρ c) (Proc.devRef .tc main_v57) = _
  after_results_simp
  rw [W2_arg14 m ρ c, W2_arg15 m ρ c, W2_arg1 m ρ c]
  rw [Cert.PreIdx.wrap_id 200000#32 _ (hidx c).1]
  rfl

/-! ## The in-degree columns -/

/-- The reference's float count of the edges into a movie row is the exact sum of ones (first layer's copy). -/
theorem refCntM (x15 : IVec Cert.ReferenceIdeal.S4000000 32) :
    val_main_v13 (F := Ideal) x15 = Ideal.hostScatterAdd Cert.ReferenceIdeal.scatter_S100000x1_S4000000x1_S4000000x1_1_0_0_1 (fun _ => (0 : EReal))
      (broadcastInDim Cert.ReferenceIdeal.S4000000x1 ![0] Cert.ReferenceIdeal.Facts₀.bcast_S4000000_S4000000x1_0 x15) (fun _ => (1 : EReal)) := by
  unfold val_main_v13 val_main_v12 val_main_v11 val_main_v10 val_main_cst_1 val_main_cst_2
  rw [bcast_scalar, bcast_scalar]
  show Ideal.hostScatterAdd _ (fun _ => Ideal.ofBits .f32 0x00000000#32) _ (fun _ => Ideal.ofBits .f32 0x3F800000#32) = _
  rw [Cert.CountLemma.ofBits_zero, Cert.CountLemma.ofBits_one]

/-- The same for the second layer's copy of the movie-side count. -/
theorem refCntM' (x15 : IVec Cert.ReferenceIdeal.S4000000 32) :
    val_main_v63 (F := Ideal) x15 = Ideal.hostScatterAdd Cert.ReferenceIdeal.scatter_S100000x1_S4000000x1_S4000000x1_1_0_0_1 (fun _ => (0 : EReal))
      (broadcastInDim Cert.ReferenceIdeal.S4000000x1 ![0] Cert.ReferenceIdeal.Facts₀.bcast_S4000000_S4000000x1_0 x15) (fun _ => (1 : EReal)) := by
  unfold val_main_v63 val_main_v62 val_main_v61 val_main_v60 val_main_cst_13 val_main_cst_14
  rw [bcast_scalar, bcast_scalar]
  show Ideal.hostScatterAdd _ (fun _ => Ideal.ofBits .f32 0x00000000#32) _ (fun _ => Ideal.ofBits .f32 0x3F800000#32) = _
  rw [Cert.CountLemma.ofBits_zero, Cert.CountLemma.ofBits_one]

/-- The reference's float count of the edges out of a user row (first layer's copy). -/
theorem refCntU (x14 : IVec Cert.ReferenceIdeal.S4000000 32) :
    val_main_v38 (F := Ideal) x14 = Ideal.hostScatterAdd Cert.ReferenceIdeal.scatter_S200000x1_S4000000x1_S4000000x1_1_0_0_1 (fun _ => (0 : EReal))
      (broadcastInDim Cert.ReferenceIdeal.S4000000x1 ![0] Cert.ReferenceIdeal.Facts₀.bcast_S4000000_S4000000x1_0 x14) (fun _ => (1 : EReal)) := by
  unfold val_main_v38 val_main_v37 val_main_v36 val_main_v35 val_main_cst_7 val_main_cst_8
  rw [bcast_scalar, bcast_scalar]
  show Ideal.hostScatterAdd _ (fun _ => Ideal.ofBits .f32 0x00000000#32) _ (fun _ => Ideal.ofBits .f32 0x3F800000#32) = _
  rw [Cert.CountLemma.ofBits_zero, Cert.CountLemma.ofBits_one]

/-- The same for the second layer's copy of the user-side count. -/
theorem refCntU' (x14 : IVec Cert.ReferenceIdeal.S4000000 32) :
    val_main_v87 (F := Ideal) x14 = Ideal.hostScatterAdd Cert.ReferenceIdeal.scatter_S200000x1_S4000000x1_S4000000x1_1_0_0_1 (fun _ => (0 : EReal))
      (broadcastInDim Cert.ReferenceIdeal.S4000000x1 ![0] Cert.ReferenceIdeal.Facts₀.bcast_S4000000_S4000000x1_0 x14) (fun _ => (1 : EReal)) := by
  unfold val_main_v87 val_main_v86 val_main_v85 val_main_v84 val_main_cst_19 val_main_cst_20
  rw [bcast_scalar, bcast_scalar]
  show Ideal.hostScatterAdd _ (fun _ => Ideal.ofBits .f32 0x00000000#32) _ (fun _ => Ideal.ofBits .f32 0x3F800000#32) = _
  rw [Cert.CountLemma.ofBits_zero, Cert.CountLemma.ofBits_one]

/-- The kernel's integer count of the edges into a movie row, converted, is the exact sum of ones. -/
theorem cntM (hidx : ∀ c : Dev nD, (∀ e, 0 ≤ ((m ((c : Thread nD τ).loc main_arg14)) e).toInt) ∧ (∀ e, 0 ≤ ((m ((c : Thread nD τ).loc main_arg15)) e).toInt)) (c : Dev nD) (r : Fin 100000) :
    W1 (F := Ideal) m ρ c (Proc.devRef .tc main_v10) (ix2 r (0 : Fin 1))
      = Ideal.hostScatterAdd Cert.ReferenceIdeal.scatter_S100000x1_S4000000x1_S4000000x1_1_0_0_1 (fun _ => (0 : EReal))
          (broadcastInDim Cert.ReferenceIdeal.S4000000x1 ![0] Cert.ReferenceIdeal.Facts₀.bcast_S4000000_S4000000x1_0 (m ((c : Thread nD τ).loc main_arg15))) (fun _ => (1 : EReal)) (ix2 r (0 : Fin 1)) := by
  show StableHlo.after hostOps0 (W0 m ρ c) (Proc.devRef .tc main_v10) (ix2 r (0 : Fin 1)) = _
  after_results_simp
  rw [Cert.PreIdx.wrap_id 100000#32 _ (hidx c).2]
  refine (col_read (n := 100000) _ _ r).trans ?_
  rw [bcast_scalar, bcast_scalar]
  exact Cert.CountLemma.count_eq_100000 _ r

/-- The kernel's integer count of the edges out of a user row, converted, is the exact sum of ones. -/
theorem cntU (hidx : ∀ c : Dev nD, (∀ e, 0 ≤ ((m ((c : Thread nD τ).loc main_arg14)) e).toInt) ∧ (∀ e, 0 ≤ ((m ((c : Thread nD τ).loc main_arg15)) e).toInt)) (c : Dev nD) (r : Fin 200000) :
    W1 (F := Ideal) m ρ c (Proc.devRef .tc main_v21) (ix2 r (0 : Fin 1))
      = Ideal.hostScatterAdd Cert.ReferenceIdeal.scatter_S200000x1_S4000000x1_S4000000x1_1_0_0_1 (fun _ => (0 : EReal))
          (broadcastInDim Cert.ReferenceIdeal.S4000000x1 ![0] Cert.ReferenceIdeal.Facts₀.bcast_S4000000_S4000000x1_0 (m ((c : Thread nD τ).loc main_arg14))) (fun _ => (1 : EReal)) (ix2 r (0 : Fin 1)) := by
  show StableHlo.after hostOps0 (W0 m ρ c) (Proc.devRef .tc main_v21) (ix2 r (0 : Fin 1)) = _
  after_results_simp
  rw [Cert.PreIdx.wrap_id 200000#32 _ (hidx c).1]
  refine (col_read (n := 200000) _ _ r).trans ?_
  rw [bcast_scalar, bcast_scalar]
  exact Cert.CountLemma.count_eq_200000 _ r

/-! ## The bias rows: a 64-vector laid out as a one-row matrix reads at `(0, q)` what the vector holds at `q` -/

theorem bias1 (c : Dev nD) (q : Fin 64) :
    W1 (F := Ideal) m ρ c (Proc.devRef .tc main_v39) (ix2 (0 : Fin 1) q) = (m ((c : Thread nD τ).loc main_arg4)) (ix1 q) := by
  show StableHlo.after hostOps0 (W0 m ρ c) (Proc.devRef .tc main_v39) (ix2 (0 : Fin 1) q) = _
  after_results_simp
  exact shapeCast_a_1a_apply (a := 64) _ _ (0 : Fin 1) q

theorem bias2 (c : Dev nD) (q : Fin 64) :
    W3 (F := Ideal) m ρ c (Proc.devRef .tc main_v58) (ix2 (0 : Fin 1) q) = (m ((c : Thread nD τ).loc main_arg7)) (ix1 q) := by
  show StableHlo.after hostOps1 (W2 m ρ c) (Proc.devRef .tc main_v58) (ix2 (0 : Fin 1) q) = _
  after_results_simp
  rw [W2_arg7 m ρ c]
  exact shapeCast_a_1a_apply (a := 64) _ _ (0 : Fin 1) q

theorem bias3 (c : Dev nD) (q : Fin 64) :
    W5 (F := Ideal) m ρ c (Proc.devRef .tc main_v77) (ix2 (0 : Fin 1) q) = (m ((c : Thread nD τ).loc main_arg10)) (ix1 q) := by
  show StableHlo.after hostOps2 (W4 m ρ c) (Proc.devRef .tc main_v77) (ix2 (0 : Fin 1) q) = _
  after_results_simp
  rw [W4_arg10 m ρ c]
  exact shapeCast_a_1a_apply (a := 64) _ _ (0 : Fin 1) q

theorem bias4 (c : Dev nD) (q : Fin 64) :
    W7 (F := Ideal) m ρ c (Proc.devRef .tc main_v96) (ix2 (0 : Fin 1) q) = (m ((c : Thread nD τ).loc main_arg13)) (ix1 q) := by
  show StableHlo.after hostOps3 (W6 m ρ c) (Proc.devRef .tc main_v96) (ix2 (0 : Fin 1) q) = _
  after_results_simp
  rw [W6_arg13 m ρ c]
  exact shapeCast_a_1a_apply (a := 64) _ _ (0 : Fin 1) q

/-! ## The layers -/

/-- Layer one, movie side: the first region's array is the reference's first activated layer. -/
theorem layer1 (hidx : ∀ c : Dev nD, (∀ e, 0 ≤ ((m ((c : Thread nD τ).loc main_arg14)) e).toInt) ∧ (∀ e, 0 ≤ ((m ((c : Thread nD τ).loc main_arg15)) e).toInt)) (c : Dev nD) : W2 (F := Ideal) m ρ c (Proc.devRef .tc main_v40) = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15)) := by
  refine (W2_arr m ρ c 6).trans ?_
  rw [Cert.KernelIdeal.Layer0.final (V1 m ρ) Cert.PayloadAt.k0_pay1_apply c]
  funext i
  obtain ⟨r, q, rfl⟩ : ∃ (r : Fin 100000) (q : Fin 64), i = ix2 r q :=
    ⟨Cert.KernelIdeal.Layer0.row i, Cert.KernelIdeal.Layer0.col i, by funext a; match a with | ⟨0, _⟩ => rfl | ⟨1, _⟩ => rfl⟩
  rw [Cert.RefStageAt.stageA_apply, ← Cert.Spec.biasLast_eq_biasFirst, refCntM]
  show max (Cert.Spec.biasLast (fun k => W1 m ρ c (Proc.devRef .tc main_v38) (ix2 r k)) (W1 m ρ c (Proc.devRef .tc main_v10) (ix2 r (0 : Fin 1)))
      (fun k => W1 m ρ c (Proc.devRef .tc main_arg1) (ix2 r k)) (fun k => W1 m ρ c (Proc.devRef .tc main_arg2) (ix2 k q))
      (fun k => W1 m ρ c (Proc.devRef .tc main_arg3) (ix2 k q)) (W1 m ρ c (Proc.devRef .tc main_v39) (ix2 (0 : Fin 1) q))) Cert.Spec.zero = _
  rw [sum1 m ρ hidx c, cntM m ρ hidx c r, W1_arg1 m ρ c, W1_arg2 m ρ c, W1_arg3 m ρ c, bias1 m ρ c q]

/-- Layer one, user side: the second region's array is the reference's second activated layer. -/
theorem layer2 (hidx : ∀ c : Dev nD, (∀ e, 0 ≤ ((m ((c : Thread nD τ).loc main_arg14)) e).toInt) ∧ (∀ e, 0 ≤ ((m ((c : Thread nD τ).loc main_arg15)) e).toInt)) (c : Dev nD) : W4 (F := Ideal) m ρ c (Proc.devRef .tc main_v59) = val_main_v49 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15)) := by
  refine (W4_arr m ρ c 6).trans ?_
  rw [Cert.KernelIdeal.Layer1.final (V3 m ρ) Cert.PayloadAt.k1_pay1_apply c]
  funext i
  obtain ⟨r, q, rfl⟩ : ∃ (r : Fin 200000) (q : Fin 64), i = ix2 r q :=
    ⟨Cert.KernelIdeal.Layer1.row i, Cert.KernelIdeal.Layer1.col i, by funext a; match a with | ⟨0, _⟩ => rfl | ⟨1, _⟩ => rfl⟩
  rw [Cert.RefStageAt.stageB_apply, ← Cert.Spec.biasLast_eq_biasFirst, refCntU]
  show max (Cert.Spec.biasLast (fun k => W3 m ρ c (Proc.devRef .tc main_v57) (ix2 r k)) (W3 m ρ c (Proc.devRef .tc main_v21) (ix2 r (0 : Fin 1)))
      (fun k => W3 m ρ c (Proc.devRef .tc main_arg0) (ix2 r k)) (fun k => W3 m ρ c (Proc.devRef .tc main_arg5) (ix2 k q))
      (fun k => W3 m ρ c (Proc.devRef .tc main_arg6) (ix2 k q)) (W3 m ρ c (Proc.devRef .tc main_v58) (ix2 (0 : Fin 1) q))) Cert.Spec.zero = _
  rw [sum2 m ρ hidx c, W3_v21 m ρ c, cntU m ρ hidx c r, W3_arg0 m ρ c, W3_arg5 m ρ c, W3_arg6 m ρ c, bias2 m ρ c q]

/-- Layer two's movie-side sums: the second region's rows gathered along the edges and summed into movie rows. -/
theorem sum3 (hidx : ∀ c : Dev nD, (∀ e, 0 ≤ ((m ((c : Thread nD τ).loc main_arg14)) e).toInt) ∧ (∀ e, 0 ≤ ((m ((c : Thread nD τ).loc main_arg15)) e).toInt)) (c : Dev nD) : W5 (F := Ideal) m ρ c (Proc.devRef .tc main_v76) = val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15)) := by
  show StableHlo.after hostOps2 (W4 m ρ c) (Proc.devRef .tc main_v76) = _
  after_results_simp
  rw [W4_arg14 m ρ c, W4_arg15 m ρ c, layer2 m ρ hidx c]
  rw [Cert.PreIdx.wrap_id 100000#32 _ (hidx c).2]
  rfl

/-- Layer two's user-side sums: the first region's rows gathered along the edges and summed into user rows. -/
theorem sum4 (hidx : ∀ c : Dev nD, (∀ e, 0 ≤ ((m ((c : Thread nD τ).loc main_arg14)) e).toInt) ∧ (∀ e, 0 ≤ ((m ((c : Thread nD τ).loc main_arg15)) e).toInt)) (c : Dev nD) : W7 (F := Ideal) m ρ c (Proc.devRef .tc main_v95) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15)) := by
  show StableHlo.after hostOps3 (W6 m ρ c) (Proc.devRef .tc main_v95) = _
  after_results_simp
  rw [W6_arg14 m ρ c, W6_arg15 m ρ c, W6_v40 m ρ c, layer1 m ρ hidx c]
  rw [Cert.PreIdx.wrap_id 200000#32 _ (hidx c).1]
  rfl

/-- Layer two, movie side: the third region's array is the reference's third layer. -/
theorem layer3 (hidx : ∀ c : Dev nD, (∀ e, 0 ≤ ((m ((c : Thread nD τ).loc main_arg14)) e).toInt) ∧ (∀ e, 0 ≤ ((m ((c : Thread nD τ).loc main_arg15)) e).toInt)) (c : Dev nD) : W6 (F := Ideal) m ρ c (Proc.devRef .tc main_v78) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) := by
  refine (W6_arr m ρ c 6).trans ?_
  rw [Cert.KernelIdeal.Layer2.final (V5 m ρ) Cert.PayloadAt.k2_pay1_apply c]
  funext i
  obtain ⟨r, q, rfl⟩ : ∃ (r : Fin 100000) (q : Fin 64), i = ix2 r q :=
    ⟨Cert.KernelIdeal.Layer2.row i, Cert.KernelIdeal.Layer2.col i, by funext a; match a with | ⟨0, _⟩ => rfl | ⟨1, _⟩ => rfl⟩
  rw [Cert.RefStageAt.stageC_apply, ← Cert.Spec.biasLast_eq_biasFirst, refCntM']
  show Cert.Spec.biasLast (fun k => W5 m ρ c (Proc.devRef .tc main_v76) (ix2 r k)) (W5 m ρ c (Proc.devRef .tc main_v10) (ix2 r (0 : Fin 1)))
      (fun k => W5 m ρ c (Proc.devRef .tc main_v40) (ix2 r k)) (fun k => W5 m ρ c (Proc.devRef .tc main_arg8) (ix2 k q))
      (fun k => W5 m ρ c (Proc.devRef .tc main_arg9) (ix2 k q)) (W5 m ρ c (Proc.devRef .tc main_v77) (ix2 (0 : Fin 1) q)) = _
  rw [sum3 m ρ hidx c, W5_v10 m ρ c, cntM m ρ hidx c r, W5_v40 m ρ c, layer1 m ρ hidx c, W5_arg8 m ρ c, W5_arg9 m ρ c, bias3 m ρ c q]

/-- Layer two, user side: the fourth region's array is the reference's fourth layer. -/
theorem layer4 (hidx : ∀ c : Dev nD, (∀ e, 0 ≤ ((m ((c : Thread nD τ).loc main_arg14)) e).toInt) ∧ (∀ e, 0 ≤ ((m ((c : Thread nD τ).loc main_arg15)) e).toInt)) (c : Dev nD) : W8 (F := Ideal) m ρ c (Proc.devRef .tc main_v97) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 6).trans ?_
  rw [Cert.KernelIdeal.Layer3.final (V7 m ρ) Cert.PayloadAt.k3_pay1_apply c]
  funext i
  obtain ⟨r, q, rfl⟩ : ∃ (r : Fin 200000) (q : Fin 64), i = ix2 r q :=
    ⟨Cert.KernelIdeal.Layer3.row i, Cert.KernelIdeal.Layer3.col i, by funext a; match a with | ⟨0, _⟩ => rfl | ⟨1, _⟩ => rfl⟩
  rw [Cert.RefStageAt.stageD_apply, ← Cert.Spec.biasLast_eq_biasFirst, refCntU']
  show Cert.Spec.biasLast (fun k => W7 m ρ c (Proc.devRef .tc main_v95) (ix2 r k)) (W7 m ρ c (Proc.devRef .tc main_v21) (ix2 r (0 : Fin 1)))
      (fun k => W7 m ρ c (Proc.devRef .tc main_v59) (ix2 r k)) (fun k => W7 m ρ c (Proc.devRef .tc main_arg11) (ix2 k q))
      (fun k => W7 m ρ c (Proc.devRef .tc main_arg12) (ix2 k q)) (W7 m ρ c (Proc.devRef .tc main_v96) (ix2 (0 : Fin 1) q)) = _
  rw [sum4 m ρ hidx c, W7_v21 m ρ c, cntU m ρ hidx c r, W7_v59 m ρ c, layer2 m ρ hidx c, W7_arg11 m ρ c, W7_arg12 m ρ c, bias4 m ρ c q]

/-! ## The result -/

/-- The returned array: the user rows of layer two above the movie rows of layer two, as in the reference. -/
theorem result (hidx : ∀ c : Dev nD, (∀ e, 0 ≤ ((m ((c : Thread nD τ).loc main_arg14)) e).toInt) ∧ (∀ e, 0 ≤ ((m ((c : Thread nD τ).loc main_arg15)) e).toInt)) (c : Dev nD) :
    W9 (F := Ideal) m ρ c (Proc.devRef .tc main_v98) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps4 (W8 m ρ c) (Proc.devRef .tc main_v98) = _
  after_results_simp
  rw [layer4 m ρ hidx c, W8_v78 m ρ c, layer3 m ρ hidx c]
  rfl

end Cert.KernelIdeal.Stages

end
-- ==== Proof.lean ====
/-
  Two two-layer graph-convolution programs over a bipartite user–movie graph compute the same 300000 × 64 array of
  extended reals, for finite features and weights and nonnegative edge indices.

  Each layer gathers source rows along the 4,000,000 edges, sums them into destination rows, divides by the
  destination's in-degree raised to at least one, and applies two 64 × 64 linear maps and a bias; the first layer
  ends in a maximum with zero.  One program runs the dense part of every layer as a tiled region over 4000-row
  blocks, counts in-degrees with integers, wraps negative destination indices by the row count, and adds the bias
  last; the other counts with floats, drops negative destination indices, and adds the bias before the second
  product.  On nonnegative indices the wrap is the identity and both drop the same updates; the integer count cannot
  overflow and converts to the float count; addition of extended reals is commutative and associative.  So the
  four layers agree one after the other, and so do the two concatenated results.

  The three frame claims are the generated runs: each program terminates without a fault and leaves its sixteen
  argument arrays as launched.  The idealization rewrote no operation, so nothing is owed for it.
-/
import proofs.«116008_j56092272886142_2_alg».proof.Defs
import proofs.«116008_j56092272886142_2_alg».proof.Proof.Gen.Kernel
import proofs.«116008_j56092272886142_2_alg».proof.Proof.Gen.Kernel.Frame
import proofs.«116008_j56092272886142_2_alg».proof.Proof.Gen.KernelIdeal
import proofs.«116008_j56092272886142_2_alg».proof.Proof.Gen.KernelIdeal.Frame
import proofs.«116008_j56092272886142_2_alg».proof.Proof.Gen.ReferenceIdeal
import proofs.«116008_j56092272886142_2_alg».proof.Proof.Gen.ReferenceIdeal.Run
import proofs.«116008_j56092272886142_2_alg».proof.Proof.Gen.ReferenceIdeal.Read
import proofs.«116008_j56092272886142_2_alg».proof.Proof.Gen.Pre_finite_inputs
import proofs.«116008_j56092272886142_2_alg».proof.Proof.KernelRun
import proofs.«116008_j56092272886142_2_alg».proof.Proof.PreIdx
import proofs.«116008_j56092272886142_2_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with one and the same result array. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v98),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq]
  obtain ⟨e0, e1, e2, e3, e4, e5, e6, e7, e8, e9, e10, e11, e12, e13, e14, e15⟩ := hagree c
  rw [e0, e1, e2, e3, e4, e5, e6, e7, e8, e9, e10, e11, e12, e13, e14, e15]
  exact (Cert.KernelIdeal.Stages.result m ρ (fun c => Cert.PreIdx.pre_idx_KernelIdeal m hpre c) c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
